-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x384 : Shape := ⟨3, ![1, 512, 384]⟩
abbrev S128x384 : Shape := ⟨2, ![128, 384]⟩
abbrev S128 : Shape := ⟨1, ![128]⟩
abbrev S128x256 : Shape := ⟨2, ![128, 256]⟩
abbrev S_ : Shape := ⟨0, ![]⟩

class Facts : Prop where
  bcast_S_S1x512x384 : S_.BroadcastsInDim S1x512x384 (![] : Fin 0 → Fin S1x512x384.rank)
  reducesTo_S1x512x384_S_d0_1_2 : S1x512x384.ReducesTo [0, 1, 2] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S128 .f32) (main_arg8 : FVec F S128x256 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x384 .f32) (main_arg5 : FVec F S128 .f32) (main_arg6 : FVec F S128 .f32) (main_arg7 : FVec F S128 .f32) (main_arg8 : FVec F S128x256 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x384 .f32 := Host.absf main_arg4
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S1x512x384 .f32) (main_arg1 : FVec F S1x512x384 .f32) (main_arg2 : FVec F S128x384 .f32) (main_arg3 : FVec F S128 .f32) (main_arg4 : FVec F S128x384 .f32) (main_arg5 : FVec F S128 .f32) (main_arg6 : FVec F S128 .f32) (main_arg7 : FVec F S128 .f32) (main_arg8 : FVec F S128x256 .f32) (main_arg9 : FVec F S128 .f32) : IVec S_ 1 :=
  let main_v0 : FVec F S1x512x384 .f32 := Host.absf main_arg0
  let main_cst : FVec F S_ .f32 := constant S_ .f32 0x7F800000#32
  let main_v1 : FVec F S1x512x384 .f32 := broadcastInDim S1x512x384 ![] bcast_S_S1x512x384 main_cst
  let main_v2 : IVec S1x512x384 1 := cmpf .olt main_v0 main_v1
  let main_c : IVec S_ 1 := constantI S_ 1 1#1
  let main_v3 : IVec S_ 1 := (fun x v => Host.reduce IntOp.andi x v reducesTo_S1x512x384_S_d0_1_2 h_S_) main_v2 main_c
  let main_v4 : FVec F S1x512x384 .f32 := Host.absf main_arg1
  let main_cst_0 : FVec F S_ .f32 := constant S_ .f32 0x7F800000#32
  let main_v5 : FVec F S1x512x384 .f32 := broadcastInDim S1x512x384 ![] bcast_S_S1x512x384 main_cst_0
  let main_v6 : IVec S1x512x384 1 := cmpf .olt main_v4 main_v5
  let main_c_1 : IVec S_ 1 := constantI S_ 1 1#1
  let main_v7 : IVec S_ 1 := (fun x v => Host.reduce IntOp.andi x v reducesTo_S1x512x384_S_d0_1_2 h_S_) main_v6 main_c_1
  let main_v8 : IVec S_ 1 := andi main_v3 main_v7
  let main_v9 : FVec F S128x384 .f32 := Host.absf main_arg2
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S1x512x384 : Shape := ⟨3, ![1, 512, 384]⟩
abbrev S128x384 : Shape := ⟨2, ![128, 384]⟩
abbrev S128 : Shape := ⟨1, ![128]⟩
abbrev S128x256 : Shape := ⟨2, ![128, 256]⟩
abbrev S1x512x128 : Shape := ⟨3, ![1, 512, 128]⟩
abbrev S1x256x384 : Shape := ⟨3, ![1, 256, 384]⟩
abbrev S1x256x128 : Shape := ⟨3, ![1, 256, 128]⟩
abbrev S256x384 : Shape := ⟨2, ![256, 384]⟩
abbrev S384x128 : Shape := ⟨2, ![384, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S128x128 : Shape := ⟨2, ![128, 128]⟩
abbrev S1x512x512x128 : Shape := ⟨4, ![1, 512, 512, 128]⟩
abbrev S1x128x128 : Shape := ⟨3, ![1, 128, 128]⟩
abbrev S1x128x128x128 : Shape := ⟨4, ![1, 128, 128, 128]⟩
abbrev S128x1x128 : Shape := ⟨3, ![128, 1, 128]⟩
abbrev S128x128x128 : Shape := ⟨3, ![128, 128, 128]⟩

abbrev nBuf : Space → Nat
  | .hbm => 13
  | .vmem => 22
  | .smem => 0
  | _ => 0

abbrev bufTy : (tb : Table) → Fin (tcTables nBuf tb) → BufTy
  | .hbm, ⟨0, _⟩ => ⟨S1x512x384, .f32⟩
  | .hbm, ⟨1, _⟩ => ⟨S1x512x384, .f32⟩
  | .hbm, ⟨2, _⟩ => ⟨S128x384, .f32⟩
  | .hbm, ⟨3, _⟩ => ⟨S128, .f32⟩
  | .hbm, ⟨4, _⟩ => ⟨S128x384, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S1x512x128, .f32⟩
  | .hbm, ⟨11, _⟩ => ⟨S1x512x128, .f32⟩
  | .hbm, ⟨12, _⟩ => ⟨S1x512x512x128, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S128x384, .f32⟩
  | .local _ .vmem, ⟨5, _⟩ => ⟨S128, .f32⟩
  | .local _ .vmem, ⟨6, _⟩ => ⟨S128x384, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x256, .f32⟩
  | .local _ .vmem, ⟨11, _⟩ => ⟨S128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128x128, .f32⟩
  | .local _ .vmem, ⟨21, _⟩ => ⟨S1x128x128x128, .f32⟩
  | _, _ => ⟨S1x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x128x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x256x384_S1x256x384_0_0_0 : ∀ a, (![0, 0, 0] : Fin 3 → Nat) a + S1x256x384.size a ≤ S1x256x384.size a
  h_S1x256x384 : 0 < S1x256x384.numel
  shapeCasts_S1x256x384_S256x384 : S1x256x384.ShapeCasts S256x384
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  transposes_S128x384_p1_0_S384x128 : S128x384.Transposes [1, 0] S384x128
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  reduces_S256x128_S256 : S256x128.Reduces [1] S256
  shapeCasts_S256_S256x1 : S256.ShapeCasts S256x1
  broadcasts_S256x1_S256x128 : S256x1.Broadcasts S256x128
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  slices_S128x256_o0_128_S128x128 : S128x256.Slices ![0, 128] S128x128
  transposes_S128x128_p1_0_S128x128 : S128x128.Transposes [1, 0] S128x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S128x1x128 : S128x128.ShapeCasts S128x1x128
  shapeCasts_S128x1x128_S128x1x128 : S128x1x128.ShapeCasts S128x1x128
  broadcasts_S128x1x128_S128x128x128 : S128x1x128.Broadcasts S128x128x128
  shapeCasts_S128x128_S1x128x128 : S128x128.ShapeCasts S1x128x128
  shapeCasts_S1x128x128_S1x128x128 : S1x128x128.ShapeCasts S1x128x128
  broadcasts_S1x128x128_S128x128x128 : S1x128x128.Broadcasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  dot_S256x384_S384x128_S256x128_1_0_0_1_n_n_wf : DotDims.WF S256x384 S384x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x384.size a ≤ S1x512x384.size a
  hwx0_0 : ∀ i : grid0.Coords, EltTy.bits .f32 = 32 ∨ (Rect.block (s := S1x512x384) S1x256x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x384.size a ≤ S1x512x384.size a
  hwx0_1 : ∀ i : grid0.Coords, EltTy.bits .f32 = 32 ∨ (Rect.block (s := S1x512x384) S1x256x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .f32 = 32 ∨ (Rect.block (s := S128x384) S128x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S128x256.size a
  hwx0_8 : ∀ i : grid0.Coords, EltTy.bits .f32 = 32 ∨ (Rect.block (s := S128x256) S128x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x128.size a ≤ S1x512x128.size a
  hwx0_10 : ∀ i : grid0.Coords, EltTy.bits .f32 = 32 ∨ (Rect.block (s := S1x512x128) S1x256x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x128.size a ≤ S1x512x128.size a
  hwx0_11 : ∀ i : grid0.Coords, EltTy.bits .f32 = 32 ∨ (Rect.block (s := S1x512x128) S1x256x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S1x512x128.size a
  hwx1_0 : ∀ i : grid1.Coords, EltTy.bits .f32 = 32 ∨ (Rect.block (s := S1x512x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S1x512x128.size a
  hwx1_1 : ∀ i : grid1.Coords, EltTy.bits .f32 = 32 ∨ (Rect.block (s := S1x512x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128x128.size a ≤ S1x512x512x128.size a
  hwx1_2 : ∀ i : grid1.Coords, EltTy.bits .f32 = 32 ∨ (Rect.block (s := S1x512x512x128) S1x128x128x128.size (cc1_transform_2 i) (hinb1_2 i)).WholeWords (EltTy.packing .f32)

variable [Facts₀]

def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S1x256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S1x256x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S1x256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v0_0) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x512x384 : Shape := ⟨3, ![1, 512, 384]⟩
abbrev S128x384 : Shape := ⟨2, ![128, 384]⟩
abbrev S128 : Shape := ⟨1, ![128]⟩
abbrev S128x256 : Shape := ⟨2, ![128, 256]⟩
abbrev S1x512x128 : Shape := ⟨3, ![1, 512, 128]⟩
abbrev S1x1x128 : Shape := ⟨3, ![1, 1, 128]⟩
abbrev S_ : Shape := ⟨0, ![]⟩
abbrev S1x512 : Shape := ⟨2, ![1, 512]⟩
abbrev S1x512x1 : Shape := ⟨3, ![1, 512, 1]⟩
abbrev S1x512x1x128 : Shape := ⟨4, ![1, 512, 1, 128]⟩
abbrev S1x512x512x128 : Shape := ⟨4, ![1, 512, 512, 128]⟩
abbrev S1x1x512x128 : Shape := ⟨4, ![1, 1, 512, 128]⟩
abbrev S1x512x512x256 : Shape := ⟨4, ![1, 512, 512, 256]⟩
abbrev S1x1x1x128 : Shape := ⟨4, ![1, 1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S1x512x384, .f32⟩
  | .hbm, ⟨1, _⟩ => ⟨S1x512x384, .f32⟩
  | .hbm, ⟨2, _⟩ => ⟨S128x384, .f32⟩
  | .hbm, ⟨3, _⟩ => ⟨S128, .f32⟩
  | .hbm, ⟨4, _⟩ => ⟨S128x384, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S1x512x128, .f32⟩
  | .hbm, ⟨11, _⟩ => ⟨S1x1x128, .f32⟩
  | .hbm, ⟨12, _⟩ => ⟨S1x512x128, .f32⟩
  | .hbm, ⟨13, _⟩ => ⟨S1x512x128, .f32⟩
  | .hbm, ⟨14, _⟩ => ⟨S_, .f32⟩
  | .hbm, ⟨15, _⟩ => ⟨S1x512, .f32⟩
  | .hbm, ⟨16, _⟩ => ⟨S1x512x1, .f32⟩
  | .hbm, ⟨17, _⟩ => ⟨S_, .f32⟩
  | .hbm, ⟨18, _⟩ => ⟨S1x512x1, .f32⟩
  | .hbm, ⟨19, _⟩ => ⟨S1x512x1, .f32⟩
  | .hbm, ⟨20, _⟩ => ⟨S1x512x128, .f32⟩
  | .hbm, ⟨21, _⟩ => ⟨S1x512x128, .f32⟩
  | .hbm, ⟨22, _⟩ => ⟨S1x512x128, .f32⟩
  | .hbm, ⟨23, _⟩ => ⟨S_, .f32⟩
  | .hbm, ⟨24, _⟩ => ⟨S1x512, .f32⟩
  | .hbm, ⟨25, _⟩ => ⟨S1x512x1, .f32⟩
  | .hbm, ⟨26, _⟩ => ⟨S_, .f32⟩
  | .hbm, ⟨27, _⟩ => ⟨S1x512x1, .f32⟩
  | .hbm, ⟨28, _⟩ => ⟨S1x512x1, .f32⟩
  | .hbm, ⟨29, _⟩ => ⟨S1x512x128, .f32⟩
  | .hbm, ⟨30, _⟩ => ⟨S1x512x128, .f32⟩
  | .hbm, ⟨31, _⟩ => ⟨S_, .f32⟩
  | .hbm, ⟨32, _⟩ => ⟨S1x512x1, .f32⟩
  | .hbm, ⟨33, _⟩ => ⟨S1x512x1, .f32⟩
  | .hbm, ⟨34, _⟩ => ⟨S1x512x1, .f32⟩
  | .hbm, ⟨35, _⟩ => ⟨S1x512x128, .f32⟩
  | .hbm, ⟨36, _⟩ => ⟨S1x512x128, .f32⟩
  | .hbm, ⟨37, _⟩ => ⟨S1x1x128, .f32⟩
  | .hbm, ⟨38, _⟩ => ⟨S1x512x128, .f32⟩
  | .hbm, ⟨39, _⟩ => ⟨S1x512x128, .f32⟩
  | .hbm, ⟨40, _⟩ => ⟨S1x1x128, .f32⟩
  | .hbm, ⟨41, _⟩ => ⟨S1x512x128, .f32⟩
  | .hbm, ⟨42, _⟩ => ⟨S1x512x128, .f32⟩
  | .hbm, ⟨43, _⟩ => ⟨S1x512x128, .f32⟩
  | .hbm, ⟨44, _⟩ => ⟨S1x1x128, .f32⟩
  | .hbm, ⟨45, _⟩ => ⟨S1x512x128, .f32⟩
  | .hbm, ⟨46, _⟩ => ⟨S1x512x128, .f32⟩
  | .hbm, ⟨47, _⟩ => ⟨S_, .f32⟩
  | .hbm, ⟨48, _⟩ => ⟨S1x512, .f32⟩
  | .hbm, ⟨49, _⟩ => ⟨S1x512x1, .f32⟩
  | .hbm, ⟨50, _⟩ => ⟨S_, .f32⟩
  | .hbm, ⟨51, _⟩ => ⟨S1x512x1, .f32⟩
  | .hbm, ⟨52, _⟩ => ⟨S1x512x1, .f32⟩
  | .hbm, ⟨53, _⟩ => ⟨S1x512x128, .f32⟩
  | .hbm, ⟨54, _⟩ => ⟨S1x512x128, .f32⟩
  | .hbm, ⟨55, _⟩ => ⟨S1x512x128, .f32⟩
  | .hbm, ⟨56, _⟩ => ⟨S_, .f32⟩
  | .hbm, ⟨57, _⟩ => ⟨S1x512, .f32⟩
  | .hbm, ⟨58, _⟩ => ⟨S1x512x1, .f32⟩
  | .hbm, ⟨59, _⟩ => ⟨S_, .f32⟩
  | .hbm, ⟨60, _⟩ => ⟨S1x512x1, .f32⟩
  | .hbm, ⟨61, _⟩ => ⟨S1x512x1, .f32⟩
  | .hbm, ⟨62, _⟩ => ⟨S1x512x128, .f32⟩
  | .hbm, ⟨63, _⟩ => ⟨S1x512x128, .f32⟩
  | .hbm, ⟨64, _⟩ => ⟨S_, .f32⟩
  | .hbm, ⟨65, _⟩ => ⟨S1x512x1, .f32⟩
  | .hbm, ⟨66, _⟩ => ⟨S1x512x1, .f32⟩
  | .hbm, ⟨67, _⟩ => ⟨S1x512x1, .f32⟩
  | .hbm, ⟨68, _⟩ => ⟨S1x512x128, .f32⟩
  | .hbm, ⟨69, _⟩ => ⟨S1x512x128, .f32⟩
  | .hbm, ⟨70, _⟩ => ⟨S1x1x128, .f32⟩
  | .hbm, ⟨71, _⟩ => ⟨S1x512x128, .f32⟩
  | .hbm, ⟨72, _⟩ => ⟨S1x512x128, .f32⟩
  | .hbm, ⟨73, _⟩ => ⟨S1x1x128, .f32⟩
  | .hbm, ⟨74, _⟩ => ⟨S1x512x128, .f32⟩
  | .hbm, ⟨75, _⟩ => ⟨S1x512x128, .f32⟩
  | .hbm, ⟨76, _⟩ => ⟨S1x512x1x128, .f32⟩
  | .hbm, ⟨77, _⟩ => ⟨S1x512x512x128, .f32⟩
  | .hbm, ⟨78, _⟩ => ⟨S1x1x512x128, .f32⟩
  | .hbm, ⟨79, _⟩ => ⟨S1x512x512x128, .f32⟩
  | .hbm, ⟨80, _⟩ => ⟨S1x512x512x256, .f32⟩
  | .hbm, ⟨81, _⟩ => ⟨S_, .f32⟩
  | .hbm, ⟨82, _⟩ => ⟨S1x512x512x256, .f32⟩
  | .hbm, ⟨83, _⟩ => ⟨S1x512x512x256, .f32⟩
  | .hbm, ⟨84, _⟩ => ⟨S1x512x512x128, .f32⟩
  | .hbm, ⟨85, _⟩ => ⟨S1x1x1x128, .f32⟩
  | .hbm, ⟨86, _⟩ => ⟨S1x512x512x128, .f32⟩
  | .hbm, ⟨87, _⟩ => ⟨S1x512x512x128, .f32⟩
  | _, _ => ⟨S1x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x512x128_0_1_2 : S1x1x128.BroadcastsInDim S1x512x128 (![0, 1, 2] : Fin 3 → Fin S1x512x128.rank)
  reducesTo_S1x512x128_S1x512_d2 : S1x512x128.ReducesTo [2] S1x512
  h_S_ : 0 < S_.numel
  bcast_S1x512_S1x512x1_0_1 : S1x512.BroadcastsInDim S1x512x1 (![0, 1] : Fin 2 → Fin S1x512x1.rank)
  bcast_S_S1x512x1 : S_.BroadcastsInDim S1x512x1 (![] : Fin 0 → Fin S1x512x1.rank)
  bcast_S1x512x1_S1x512x128_0_1_2 : S1x512x1.BroadcastsInDim S1x512x128 (![0, 1, 2] : Fin 3 → Fin S1x512x128.rank)
  bcast_S1x512x128_S1x512x1x128_0_1_3 : S1x512x128.BroadcastsInDim S1x512x1x128 (![0, 1, 3] : Fin 3 → Fin S1x512x1x128.rank)
  bcast_S1x512x1x128_S1x512x512x128_0_1_2_3 : S1x512x1x128.BroadcastsInDim S1x512x512x128 (![0, 1, 2, 3] : Fin 4 → Fin S1x512x512x128.rank)
  bcast_S1x512x128_S1x1x512x128_0_2_3 : S1x512x128.BroadcastsInDim S1x1x512x128 (![0, 2, 3] : Fin 3 → Fin S1x1x512x128.rank)
  bcast_S1x1x512x128_S1x512x512x128_0_1_2_3 : S1x1x512x128.BroadcastsInDim S1x512x512x128 (![0, 1, 2, 3] : Fin 4 → Fin S1x512x512x128.rank)
  concatenates_S1x512x512x128_S1x512x512x128_S1x512x512x256_d3 : Shape.Concatenates [S1x512x512x128, S1x512x512x128] S1x512x512x256 3
  bcast_S_S1x512x512x256 : S_.BroadcastsInDim S1x512x512x256 (![] : Fin 0 → Fin S1x512x512x256.rank)
  bcast_S128_S1x1x1x128_3 : S128.BroadcastsInDim S1x1x1x128 (![3] : Fin 1 → Fin S1x1x1x128.rank)
  bcast_S1x1x1x128_S1x512x512x128_0_1_2_3 : S1x1x1x128.BroadcastsInDim S1x512x512x128 (![0, 1, 2, 3] : Fin 4 → Fin S1x512x512x128.rank)
  dot_S1x512x384_S128x384_S1x512x128_2_1_01_0_n_n_wf : DotDims.WF S1x512x384 S128x384 S1x512x128 [2] [1] [0, 1] [0] [] []
  dot_S1x512x512x256_S128x256_S1x512x512x128_3_1_012_0_n_n_wf : DotDims.WF S1x512x512x256 S128x256 S1x512x512x128 [3] [1] [0, 1, 2] [0] [] []

variable [Facts₀]

def dot_S1x512x384_S128x384_S1x512x128_2_1_01_0_n_n : DotDims S1x512x384 S128x384 S1x512x128 where
  lhsContracting := [2]
  rhsContracting := [1]
  lhsNonContracting := [0, 1]
  rhsNonContracting := [0]
  lhsBatch := []
  rhsBatch := []
  wf := dot_S1x512x384_S128x384_S1x512x128_2_1_01_0_n_n_wf
def dot_S1x512x512x256_S128x256_S1x512x512x128_3_1_012_0_n_n : DotDims S1x512x512x256 S128x256 S1x512x512x128 where
  lhsContracting := [3]
  rhsContracting := [1]
  lhsNonContracting := [0, 1, 2]
  rhsNonContracting := [0]
  lhsBatch := []
  rhsBatch := []
  wf := dot_S1x512x512x256_S128x256_S1x512x512x128_3_1_012_0_n_n_wf

class Facts : Prop extends Facts₀ where

variable [Facts]
-- ==== Proof.KernelRun.lean ====
/-
  The idealised kernel's run, with every buffer's final contents named.

  @main is two kernel regions in a row. Each region leaves its arrays at what its write-backs fold to and every other
  buffer as it found it, so the contents at the end are a fold `W2` from the launch memory through the two regions.
  Here the run is stated with that fold in its post: every weakly fair execution terminates, nothing faulting, and every
  buffer that outlives the regions ends at `W2`. The result array and the ten arguments are among those buffers.
-/
import proofs.«168083_j89464168775793_2_alg».proof.Proof.Gen.KernelIdeal.Frame

set_option maxRecDepth 16384

noncomputable section

namespace Cert.KernelIdeal.PairRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates without a fault, and in every
    final state each buffer that outlives the regions holds the fold `W2` of the launch memory through the two regions. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

end Cert.KernelIdeal.PairRun

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRealEntries.lean ====
/-
  Entries that are real numbers, and the two spellings of a batch's variance.

  On the extended reals the sum and the product are total, but distributing a product over a sum, or cancelling, is
  sound only away from the infinities. `IsReal x` says that `x` is a real number. The operations a normalisation layer is
  spelled with keep entries real: sums, differences, products, maxima, finite sums, a quotient by a nonzero real, the
  reciprocal square root of a positive real; and so do a product of matrices (every entry a finite sum of products), a
  read through an index map, a scatter that adds updates onto an array (every entry the old entry plus a finite sum of
  updates) and a sum over an axis.

  For real entries x_1 … x_n with mean μ = (∑ x_i)/n the mean of the squared deviations, (∑ (x_i − μ)²)/n, is the mean
  of the squares minus the squared mean, (∑ x_i²)/n − μ·μ: expand the square and use ∑ x_i = n·μ. It is nonnegative, so
  adding a positive real and taking the reciprocal square root gives a real.
-/
import Idealize.ShloMosaic.PureOps.Ideal.Laws

noncomputable section

open scoped BigOperators

namespace Cert.LibRealEntries

open Idealize.ShloMosaic

/-- An extended real that is a real number. -/
def IsReal (x : EReal) : Prop := ∃ r : ℝ, x = (r : EReal)

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace IsReal

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  rcases max_choice x y with h | h <;> rw [h] <;> assumption

theorem sum {ι : Type} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- A quotient by a nonzero real. -/
theorem div {x : EReal} (hx : IsReal x) {n : ℝ} (hn : n ≠ 0) : IsReal (Ideal.div x (n : EReal)) := by
  rw [Ideal.div_coe hn]; exact mul hx (coe _)

/-- The reciprocal square root of a positive real. -/
theorem rsqrt_pos {r : ℝ} (h : 0 < r) : IsReal (Ideal.rsqrt (r : EReal)) := by
  rw [Ideal.rsqrt_coe, if_neg (not_lt.mpr h.le), if_neg h.ne']; exact coe _

end IsReal

/-! ## Whole arrays -/

/-- Every entry is a real number. -/
def AllReal {ι : Type} (v : ι → EReal) : Prop := ∀ i, IsReal (v i)

namespace AllReal

variable {ι κ : Type}

theorem const {x : EReal} (hx : IsReal x) : AllReal (fun _ : ι => x) := fun _ => hx

/-- A read through any index map. -/
theorem comp {v : ι → EReal} (hv : AllReal v) (e : κ → ι) : AllReal (fun j => v (e j)) := fun j => hv (e j)

theorem add {u v : ι → EReal} (hu : AllReal u) (hv : AllReal v) : AllReal (fun i => u i + v i) := fun i => (hu i).add (hv i)
theorem sub {u v : ι → EReal} (hu : AllReal u) (hv : AllReal v) : AllReal (fun i => u i - v i) := fun i => (hu i).sub (hv i)
theorem mul {u v : ι → EReal} (hu : AllReal u) (hv : AllReal v) : AllReal (fun i => u i * v i) := fun i => (hu i).mul (hv i)
theorem max {u v : ι → EReal} (hu : AllReal u) (hv : AllReal v) : AllReal (fun i => Max.max (u i) (v i)) := fun i => (hu i).max (hv i)

/-- Layout operations read the operand through an index map. -/
theorem broadcastInDim {s t : Shape} (dims : Fin s.rank → Fin t.rank) (h : s.BroadcastsInDim t dims) {x : s.Idx → EReal}
    (hx : AllReal x) : AllReal (Idealize.ShloMosaic.broadcastInDim t dims h x) := fun _ => hx _

theorem broadcastTo {s t : Shape} (h : s.Broadcasts t) {x : s.Idx → EReal} (hx : AllReal x) :
    AllReal (Idealize.ShloMosaic.broadcastTo t x h) := fun _ => hx _

theorem shapeCast {s t : Shape} (h : s.ShapeCasts t) {x : s.Idx → EReal} (hx : AllReal x) :
    AllReal (Idealize.ShloMosaic.shapeCast t x h) := fun _ => hx _

theorem gather {s si t : Shape} {w : Nat} (d : GatherDims s si t) {x : s.Idx → EReal} (idx : IVec si w) (hx : AllReal x) :
    AllReal (Host.gather d x idx) := fun _ => hx _

/-- The entrywise operations on arrays. -/
theorem vaddf {s : Shape} {φ : FTy} {x y : FVec Ideal s φ} (hx : AllReal x) (hy : AllReal y) :
    AllReal (Idealize.ShloMosaic.addf x y) := fun i => (hx i).add (hy i)
theorem vsubf {s : Shape} {φ : FTy} {x y : FVec Ideal s φ} (hx : AllReal x) (hy : AllReal y) :
    AllReal (Idealize.ShloMosaic.subf x y) := fun i => (hx i).sub (hy i)
theorem vmulf {s : Shape} {φ : FTy} {x y : FVec Ideal s φ} (hx : AllReal x) (hy : AllReal y) :
    AllReal (Idealize.ShloMosaic.mulf x y) := fun i => (hx i).mul (hy i)
theorem vmaximumf {s : Shape} {φ : FTy} {x y : FVec Ideal s φ} (hx : AllReal x) (hy : AllReal y) :
    AllReal (Idealize.ShloMosaic.maximumf x y) := fun i => (hx i).max (hy i)

/-- The host's product of two arrays of reals: every entry is a finite sum of products. -/
theorem dotGeneral {sl sr so : Shape} {φ₁ φ₂ : FTy} (d : DotDims sl sr so) (prec : Option ContractPrecision) (sched : HostSchedule)
    {lhs : FVec Ideal sl φ₁} {rhs : FVec Ideal sr φ₂} (hl : AllReal lhs) (hr : AllReal rhs) :
    AllReal (FloatOps.dotGeneral d prec sched lhs rhs) := fun j => by
  rw [Ideal.dotGeneral_apply]
  exact IsReal.sum _ _ fun k _ => (hl _).mul (hr _)

/-- A scatter that adds real updates onto an array of reals: every entry is the old entry plus a finite sum of updates. -/
theorem scatterAdd {s si su : Shape} {φ : FTy} {w : Nat} (d : ScatterDims s si su) (sched : HostSchedule)
    {x : FVec Ideal s φ} (idx : IVec si w) {upd : FVec Ideal su φ} (hx : AllReal x) (hu : AllReal upd) :
    AllReal (FloatOps.hostScatterAdd d sched x idx upd) := fun i => by
  rw [Ideal.hostScatterAdd_def]
  exact (hx i).add (IsReal.sum _ _ fun j _ => hu j)

/-- The host's sum over axes, from a real initial value. -/
theorem hostReduceAdd {s t : Shape} {φ : FTy} (axes : List (Fin s.rank)) (h : s.ReducesTo axes t) (sched : HostSchedule)
    {v : FVec Ideal s φ} {init : Ideal φ} (hv : AllReal v) (hi : IsReal init) :
    AllReal (FloatOps.hostReduceAdd axes h sched v init) := fun j => by
  rw [Ideal.hostReduceAdd_def]
  exact hi.add (IsReal.sum _ _ fun i _ => hv i)

end AllReal

/-! ## Nonnegative reals: a count -/

/-- An extended real that is a nonnegative real number. -/
def IsNonneg (x : EReal) : Prop := ∃ r : ℝ, 0 ≤ r ∧ x = (r : EReal)

namespace IsNonneg

theorem add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem sum {ι : Type} (s : Finset ι) (f : ι → EReal) (h : ∀ i ∈ s, IsNonneg (f i)) : IsNonneg (∑ i ∈ s, f i) := by
  classical
  induction s using Finset.induction_on with
  | empty => exact ⟨0, le_refl _, by simp⟩
  | insert a s ha ih =>
    rw [Finset.sum_insert ha]
    exact add (h a (Finset.mem_insert_self a s)) (ih fun i hi => h i (Finset.mem_insert_of_mem hi))

/-- A scatter that adds nonnegative updates onto nonnegative entries: a count of edges is one. -/
theorem scatterAdd {s si su : Shape} {φ : FTy} {w : Nat} (d : ScatterDims s si su) (sched : HostSchedule)
    {x : FVec Ideal s φ} (idx : IVec si w) {upd : FVec Ideal su φ} (hx : ∀ i, IsNonneg (x i)) (hu : ∀ j, IsNonneg (upd j)) (i : s.Idx) :
    IsNonneg (FloatOps.hostScatterAdd d sched x idx upd i) := by
  rw [Ideal.hostScatterAdd_def]
  exact (hx i).add (sum _ _ fun j _ => hu j)

end IsNonneg

/-! ## The two spellings of the variance -/

variable {ι : Type} [Fintype ι]

/-- Over the reals: the mean of the squared deviations is the mean of the squares minus the squared mean. -/
theorem real_moments (r : ι → ℝ) (n : ℝ) (hn : (Fintype.card ι : ℝ) = n) (h0 : n ≠ 0) :
    (∑ i, (r i - (∑ i, r i) * (1 / n)) * (r i - (∑ i, r i) * (1 / n))) * (1 / n)
      = (∑ i, r i * r i) * (1 / n) - ((∑ i, r i) * (1 / n)) * ((∑ i, r i) * (1 / n)) := by
  set S := ∑ i, r i with hS
  have h1 : ∑ i, (r i - S * (1 / n)) * (r i - S * (1 / n))
      = ∑ i, r i * r i - 2 * (S * (1 / n)) * S + n * ((S * (1 / n)) * (S * (1 / n))) := by
    have : ∀ i, (r i - S * (1 / n)) * (r i - S * (1 / n))
        = r i * r i - 2 * (S * (1 / n)) * r i + (S * (1 / n)) * (S * (1 / n)) := fun i => by ring
    simp only [this, Finset.sum_add_distrib, Finset.sum_sub_distrib, ← Finset.mul_sum, Finset.sum_const, Finset.card_univ,
      nsmul_eq_mul, hn, ← hS]
    ring
  rw [h1]
  field_simp
  ring

/-- The sum of the squared deviations of reals is a nonnegative real. -/
theorem real_dev_nonneg (r : ι → ℝ) (μ : ℝ) : 0 ≤ ∑ i, (r i - μ) * (r i - μ) :=
  Finset.sum_nonneg fun i _ => mul_self_nonneg _

/-- On the extended reals, for real entries: the mean of the squared deviations from the mean is the mean of the
    squares minus the squared mean. -/
theorem moments (x : ι → EReal) (hx : AllReal x) (n : ℝ) (hn : (Fintype.card ι : ℝ) = n) (h0 : n ≠ 0) :
    Ideal.div (∑ i, (x i - Ideal.div (∑ i, x i) n) * (x i - Ideal.div (∑ i, x i) n)) n
      = Ideal.div (∑ i, x i * x i) n - Ideal.div (∑ i, x i) n * Ideal.div (∑ i, x i) n := by
  choose r hr using hx
  obtain rfl : x = fun i => (r i : EReal) := funext hr
  simp only [Ideal.div_coe h0, ← coe_sum, ← EReal.coe_mul, ← EReal.coe_sub]
  exact congrArg _ (real_moments r n hn h0)

/-- For real entries the mean of the squared deviations plus a positive real has a real reciprocal square root. -/
theorem rsqrt_var_isReal (x : ι → EReal) (hx : AllReal x) (n : ℝ) (hn : (Fintype.card ι : ℝ) = n) (h0 : n ≠ 0)
    {e : ℝ} (he : 0 < e) :
    IsReal (Ideal.rsqrt (Ideal.div (∑ i, (x i - Ideal.div (∑ i, x i) n) * (x i - Ideal.div (∑ i, x i) n)) n + (e : EReal))) := by
  choose r hr using hx
  obtain rfl : x = fun i => (r i : EReal) := funext hr
  have hnpos : 0 < n := by
    have : (0 : ℝ) ≤ n := hn ▸ Nat.cast_nonneg _
    exact lt_of_le_of_ne this (Ne.symm h0)
  simp only [Ideal.div_coe h0, ← coe_sum, ← EReal.coe_mul, ← EReal.coe_sub, ← EReal.coe_add]
  refine IsReal.rsqrt_pos ?_
  have := real_dev_nonneg r ((∑ i, r i) * (1 / n))
  have h2 : 0 ≤ (∑ i, (r i - (∑ i, r i) * (1 / n)) * (r i - (∑ i, r i) * (1 / n))) * (1 / n) :=
    mul_nonneg this (by positivity)
  linarith

/-- The mean of real entries is real. -/
theorem mean_isReal (x : ι → EReal) (hx : AllReal x) (n : ℝ) (h0 : n ≠ 0) : IsReal (Ideal.div (∑ i, x i) n) :=
  (IsReal.sum _ _ fun i _ => hx i).div h0

end Cert.LibRealEntries

end
-- ==== Proof.LibRealSums.lean ====
/-
  A real factor and a finite sum of real entries, on the extended reals.

  On the extended reals a product distributes over a sum only away from the infinities: (+inf) * (1 + (-1)) is 0 while
  (+inf) * 1 + (+inf) * (-1) is not defined as a number. When the factor and every summand are real numbers the law is the
  real one, carried along the inclusion of the reals, which commutes with products and with finite sums.
-/
import proofs.«168083_j89464168775793_2_alg».proof.Proof.LibRealEntries

noncomputable section

open scoped BigOperators

namespace Cert.LibRealSums

open Cert.LibRealEntries

/-- A real factor distributes over a finite sum of real entries: a * (sum of u i) = sum of a * u i. -/
theorem mul_sum_of_real {ι : Type} (s : Finset ι) {a : EReal} (ha : IsReal a) (u : ι → EReal) (hu : ∀ i, IsReal (u i)) :
    a * ∑ i ∈ s, u i = ∑ i ∈ s, a * u i := by
  obtain ⟨a, rfl⟩ := ha
  choose r hr using hu
  obtain rfl : u = fun i => ((r i : ℝ) : EReal) := funext hr
  rw [← coe_sum, ← EReal.coe_mul, Finset.mul_sum, coe_sum]
  simp only [EReal.coe_mul]

/-- The same with the factor on the right. -/
theorem sum_mul_of_real {ι : Type} (s : Finset ι) {a : EReal} (ha : IsReal a) (u : ι → EReal) (hu : ∀ i, IsReal (u i)) :
    (∑ i ∈ s, u i) * a = ∑ i ∈ s, u i * a := by
  rw [mul_comm, mul_sum_of_real s ha u hu]
  exact Finset.sum_congr rfl fun i _ => mul_comm _ _

end Cert.LibRealSums

end
-- ==== Proof.Consts.lean ====
/-
  The float words the two programs spell, as the extended reals they denote.

  128 divides the row sums of the layer normalisation; 262144 = 2^18 is the reference's divisor of the pair
  features and 2^-18 the kernel's factor on the projected rows (the same number: the reciprocal of a power of two
  is a float); the normalisation's epsilon is only ever needed as some positive real.
-/
import Idealize.ShloMosaic.PureOps.Ideal

noncomputable section

namespace Cert.PairConsts

open Idealize.ShloMosaic

/-- The zero word denotes 0. -/
theorem ofBits_zero : Ideal.ofBits .f32 0x00000000#32 = 0 := by
  simp [Ideal.ofBits, Ideal.ieee]

/-- 128.0 denotes the real 128. -/
theorem ofBits_128 : Ideal.ofBits .f32 0x43000000#32 = ((128 : ℝ) : EReal) := by
  simp [Ideal.ofBits, Ideal.ieee, -EReal.coe_mul]; norm_num

/-- 262144.0 denotes the real 2^18. -/
theorem ofBits_two18 : Ideal.ofBits .f32 0x48800000#32 = ((262144 : ℝ) : EReal) := by
  simp [Ideal.ofBits, Ideal.ieee, -EReal.coe_mul]; norm_num

/-- The kernel's scale denotes the real 2^-18. -/
theorem ofBits_inv_two18 : Ideal.ofBits .f32 0x36800000#32 = ((1 / 262144 : ℝ) : EReal) := by
  simp [Ideal.ofBits, Ideal.ieee, -EReal.coe_mul]; norm_num

/-- The normalisation's epsilon denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

end Cert.PairConsts

end
-- ==== Proof.Spec.lean ====
/-
  The pairwise projection, stated once, index by index, over the extended reals.

  Two feature arrays s1, s2 : [1, 512, 384] are projected to 128 channels (a dense layer each) and layer-normalised
  along the channels with a shared gain and offset, giving A, B : 512 × 128. The result at (n, m, z) is linear in the
  256 numbers (A n ·, B m ·) scaled by 2^-18:

      out n m z = Σ_{k < 256} (cat n m k / 2^18) · Wout z k + bout z,   cat n m = A n ++ B m        (one side)

      out n m z = PA n z + PB m z,    PA n z = (Σ_h A n h · Wout z h) · 2^-18 + bout z,
                                      PB m z = (Σ_h B m h · Wout z (128 + h)) · 2^-18               (the other)

  The two agree when the entries are real numbers: the sum over 256 splits into its two halves, the factor 2^-18
  moves across each half (which is where the infinities would hurt), and dividing by 2^18 is multiplying by 2^-18.
  The normalised rows are real whenever the features, weights and biases are, because a variance plus a positive
  epsilon is positive.
-/
import Idealize.ShloMosaic.PureOps.Ideal.Laws
import Idealize.ShloMosaic.Lib.ValueIdx
import proofs.«168083_j89464168775793_2_alg».proof.Proof.LibRealEntries
import proofs.«168083_j89464168775793_2_alg».proof.Proof.LibRealSums
import proofs.«168083_j89464168775793_2_alg».proof.Proof.Consts

noncomputable section

open scoped BigOperators

namespace Cert.PairSpec

open Idealize.ShloMosaic Idealize.ShloMosaic.ValueIdx Cert.LibRealEntries

/-! ## The layer normalisation of one row -/

/-- The mean of a row of 128 entries. -/
def mean (x : Fin 128 → EReal) : EReal := Ideal.div (∑ k, x k) (Ideal.ofBits .f32 0x43000000#32)

/-- The mean of the squared deviations from the mean. -/
def var (x : Fin 128 → EReal) : EReal :=
  Ideal.div (∑ k, (x k - mean x) * (x k - mean x)) (Ideal.ofBits .f32 0x43000000#32)

/-- The normalised row: centred, scaled by the reciprocal root of variance plus epsilon, then gain and offset. -/
def lnRow (x γ β : Fin 128 → EReal) (h : Fin 128) : EReal :=
  (x h - mean x) * Ideal.rsqrt (var x + Ideal.ofBits .f32 0x3727C5AC#32) * γ h + β h

theorem mean_eq (x : Fin 128 → EReal) : mean x = Ideal.div (∑ k, x k) ((128 : ℝ) : EReal) := by
  unfold mean; rw [Cert.PairConsts.ofBits_128]

theorem var_eq (x : Fin 128 → EReal) :
    var x = Ideal.div (∑ k, (x k - Ideal.div (∑ k, x k) ((128 : ℝ) : EReal)) * (x k - Ideal.div (∑ k, x k) ((128 : ℝ) : EReal)))
      ((128 : ℝ) : EReal) := by
  unfold var; rw [mean_eq, Cert.PairConsts.ofBits_128]

/-- A normalised row of real entries, with real gain and offset, is real. -/
theorem lnRow_isReal {x γ β : Fin 128 → EReal} (hx : AllReal x) (hγ : AllReal γ) (hβ : AllReal β) (h : Fin 128) :
    IsReal (lnRow x γ β h) := by
  obtain ⟨e, he, hE⟩ := Cert.PairConsts.ofBits_eps
  have h128 : ((Fintype.card (Fin 128) : ℕ) : ℝ) = 128 := by simp
  have h0 : (128 : ℝ) ≠ 0 := by norm_num
  unfold lnRow
  refine (((hx h).sub ?_).mul ?_).mul (hγ h) |>.add (hβ h)
  · rw [mean_eq]; exact mean_isReal x hx 128 h0
  · rw [var_eq, hE]; exact rsqrt_var_isReal x hx 128 h128 h0 he

/-! ## The dense layer in front of it -/

/-- Row n of the projection of the features s by the weights W (rows of W are output channels) plus the bias. -/
def pre (s : (⟨3, ![1, 512, 384]⟩ : Shape).Idx → EReal) (W : (⟨2, ![128, 384]⟩ : Shape).Idx → EReal)
    (b : (⟨1, ![128]⟩ : Shape).Idx → EReal) (n : Fin 512) (h : Fin 128) : EReal :=
  (∑ k : Fin 384, s (ix3 0 n k) * W (ix2 h k)) + b (ix1 h)

/-- The projected and normalised features: entry (n, h). -/
def act (s : (⟨3, ![1, 512, 384]⟩ : Shape).Idx → EReal) (W : (⟨2, ![128, 384]⟩ : Shape).Idx → EReal)
    (b γ β : (⟨1, ![128]⟩ : Shape).Idx → EReal) (n : Fin 512) (h : Fin 128) : EReal :=
  lnRow (pre s W b n) (fun k => γ (ix1 k)) (fun k => β (ix1 k)) h

theorem pre_isReal {s : (⟨3, ![1, 512, 384]⟩ : Shape).Idx → EReal} {W : (⟨2, ![128, 384]⟩ : Shape).Idx → EReal}
    {b : (⟨1, ![128]⟩ : Shape).Idx → EReal} (hs : AllReal s) (hW : AllReal W) (hb : AllReal b) (n : Fin 512) (h : Fin 128) :
    IsReal (pre s W b n h) :=
  (IsReal.sum _ _ fun k _ => (hs _).mul (hW _)).add (hb _)

theorem act_isReal {s : (⟨3, ![1, 512, 384]⟩ : Shape).Idx → EReal} {W : (⟨2, ![128, 384]⟩ : Shape).Idx → EReal}
    {b γ β : (⟨1, ![128]⟩ : Shape).Idx → EReal} (hs : AllReal s) (hW : AllReal W) (hb : AllReal b) (hγ : AllReal γ)
    (hβ : AllReal β) (n : Fin 512) (h : Fin 128) : IsReal (act s W b γ β n h) :=
  lnRow_isReal (fun k => pre_isReal hs hW hb n k) (fun k => hγ _) (fun k => hβ _) h

/-! ## The two halves of the 256 joined channels -/

/-- Channel h of the first half. -/
def lo (h : Fin 128) : Fin 256 := ⟨h.val, by omega⟩
/-- Channel h of the second half. -/
def hi (h : Fin 128) : Fin 256 := ⟨128 + h.val, by omega⟩

/-- A sum over the 256 joined channels is the sum over the first half plus the sum over the second. -/
theorem sum_halves (f : Fin 256 → EReal) : ∑ k : Fin 256, f k = ∑ h : Fin 128, f (lo h) + ∑ h : Fin 128, f (hi h) :=
  Fin.sum_univ_add (M := EReal) (a := 128) (b := 128) f

/-- The joined row: A n on the first 128 channels, B m on the last. -/
def cat (A B : Fin 512 → Fin 128 → EReal) (n m : Fin 512) (k : Fin 256) : EReal :=
  if h : k.val < 128 then A n ⟨k.val, h⟩ else B m ⟨k.val - 128, by omega⟩

theorem cat_lo (A B : Fin 512 → Fin 128 → EReal) (n m : Fin 512) (h : Fin 128) : cat A B n m (lo h) = A n h := by
  unfold cat lo; rw [dif_pos h.isLt]

theorem cat_hi (A B : Fin 512 → Fin 128 → EReal) (n m : Fin 512) (h : Fin 128) : cat A B n m (hi h) = B m h := by
  unfold cat hi
  rw [dif_neg (by simp)]
  exact congrArg (B m) (Fin.ext (by simp))

/-! ## The result, both ways -/

/-- One side: scale the joined row by 1/2^18, contract with Wout, add the bias. -/
def outJoined (A B : Fin 512 → Fin 128 → EReal) (Wout : (⟨2, ![128, 256]⟩ : Shape).Idx → EReal)
    (bout : (⟨1, ![128]⟩ : Shape).Idx → EReal) (n m : Fin 512) (z : Fin 128) : EReal :=
  (∑ k : Fin 256, Ideal.div (cat A B n m k) (Ideal.ofBits .f32 0x48800000#32) * Wout (ix2 z k)) + bout (ix1 z)

/-- The other side's first array: rows of A against the first half of Wout, scaled by 2^-18, plus the bias. -/
def projA (A : Fin 512 → Fin 128 → EReal) (Wout : (⟨2, ![128, 256]⟩ : Shape).Idx → EReal)
    (bout : (⟨1, ![128]⟩ : Shape).Idx → EReal) (n : Fin 512) (z : Fin 128) : EReal :=
  (∑ h : Fin 128, A n h * Wout (ix2 z (lo h))) * Ideal.ofBits .f32 0x36800000#32 + bout (ix1 z)

/-- Its second array: rows of B against the second half of Wout, scaled by 2^-18. -/
def projB (B : Fin 512 → Fin 128 → EReal) (Wout : (⟨2, ![128, 256]⟩ : Shape).Idx → EReal) (m : Fin 512) (z : Fin 128) : EReal :=
  (∑ h : Fin 128, B m h * Wout (ix2 z (hi h))) * Ideal.ofBits .f32 0x36800000#32

/-- Scaling a real product sum by 2^-18 is dividing each first factor by 2^18. -/
theorem scale_sum (u w : Fin 128 → EReal) (hu : AllReal u) (hw : AllReal w) :
    (∑ h, u h * w h) * Ideal.ofBits .f32 0x36800000#32 = ∑ h, Ideal.div (u h) (Ideal.ofBits .f32 0x48800000#32) * w h := by
  rw [Cert.PairConsts.ofBits_inv_two18, Cert.PairConsts.ofBits_two18,
    Cert.LibRealSums.sum_mul_of_real _ (IsReal.coe _) _ fun h => (hu h).mul (hw h)]
  refine Finset.sum_congr rfl fun h _ => ?_
  rw [Ideal.div_coe (by norm_num : (262144 : ℝ) ≠ 0)]
  exact mul_right_comm _ _ _

/-- THE LAW: for real A, B and Wout the outer sum of the two projected arrays is the joined contraction. -/
theorem proj_add_eq_joined {A B : Fin 512 → Fin 128 → EReal} {Wout : (⟨2, ![128, 256]⟩ : Shape).Idx → EReal}
    (bout : (⟨1, ![128]⟩ : Shape).Idx → EReal) (hA : ∀ n h, IsReal (A n h)) (hB : ∀ m h, IsReal (B m h)) (hW : AllReal Wout)
    (n m : Fin 512) (z : Fin 128) :
    projA A Wout bout n z + projB B Wout m z = outJoined A B Wout bout n m z := by
  unfold projA projB outJoined
  rw [sum_halves, scale_sum (A n) (fun h => Wout (ix2 z (lo h))) (hA n) (fun h => hW _),
    scale_sum (B m) (fun h => Wout (ix2 z (hi h))) (hB m) (fun h => hW _)]
  simp only [cat_lo, cat_hi]
  exact add_right_comm _ _ _

/-! ## The whole computation as functions of the ten arguments -/

section Whole

variable (s1 s2 : (⟨3, ![1, 512, 384]⟩ : Shape).Idx → EReal) (W1 : (⟨2, ![128, 384]⟩ : Shape).Idx → EReal)
  (b1 : (⟨1, ![128]⟩ : Shape).Idx → EReal) (W2 : (⟨2, ![128, 384]⟩ : Shape).Idx → EReal)
  (b2 γ β : (⟨1, ![128]⟩ : Shape).Idx → EReal) (Wout : (⟨2, ![128, 256]⟩ : Shape).Idx → EReal)
  (bout : (⟨1, ![128]⟩ : Shape).Idx → EReal)

/-- The first projected array, [1, 512, 128]. -/
def arrA : (⟨3, ![1, 512, 128]⟩ : Shape).Idx → EReal := fun i => projA (act s1 W1 b1 γ β) Wout bout (i 1) (i 2)

/-- The second projected array, [1, 512, 128]. -/
def arrB : (⟨3, ![1, 512, 128]⟩ : Shape).Idx → EReal := fun i => projB (act s2 W2 b2 γ β) Wout (i 1) (i 2)

/-- The result as the outer sum of the two projected arrays. -/
def outerSum (pa pb : (⟨3, ![1, 512, 128]⟩ : Shape).Idx → EReal) : (⟨4, ![1, 512, 512, 128]⟩ : Shape).Idx → EReal :=
  fun i => pa (ix3 0 (i 1) (i 3)) + pb (ix3 0 (i 2) (i 3))

/-- The result as the joined contraction. -/
def joined : (⟨4, ![1, 512, 512, 128]⟩ : Shape).Idx → EReal :=
  fun i => outJoined (act s1 W1 b1 γ β) (act s2 W2 b2 γ β) Wout bout (i 1) (i 2) (i 3)

/-- With real arguments the two are the same array. -/
theorem outerSum_eq_joined (h1 : AllReal s1) (h2 : AllReal s2) (hW1 : AllReal W1) (hb1 : AllReal b1) (hW2 : AllReal W2)
    (hb2 : AllReal b2) (hγ : AllReal γ) (hβ : AllReal β) (hWo : AllReal Wout) :
    outerSum (arrA s1 W1 b1 γ β Wout bout) (arrB s2 W2 b2 γ β Wout) = joined s1 s2 W1 b1 W2 b2 γ β Wout bout := by
  funext i
  exact proj_add_eq_joined bout (fun n h => act_isReal h1 hW1 hb1 hγ hβ n h) (fun m h => act_isReal h2 hW2 hb2 hγ hβ m h) hWo
    (i 1) (i 2) (i 3)

end Whole

end Cert.PairSpec

end
-- ==== Proof.DenseBody.lean ====
/-
  The first kernel's body, part one: the dense layer and the row statistics of one block of 256 rows.

  From a block x : [1, 256, 384] of features, weights w : [128, 384] and a bias, the body forms the pre-activation
  row by row — entry (p, h) is the sum over the 384 features of x (0, p, ·) against row h of w, plus bias h: the
  weights are transposed and the product accumulated from zero, which at the extended reals is that sum —, then
  each row's mean (the lane sum over the 128 channels divided by 128), the centred row, and the mean of the squared
  deviations. Each is read here at explicit coordinates and named by the specification's mean and var of the row.
-/
import proofs.«168083_j89464168775793_2_alg».proof.Proof.Gen.KernelIdeal.Skeleton
import proofs.«168083_j89464168775793_2_alg».proof.Proof.LibMatmulPlain
import proofs.«168083_j89464168775793_2_alg».proof.Proof.LibColumns
import proofs.«168083_j89464168775793_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PairBody

open Cert.KernelIdeal Cert.KernelIdeal.Gen Idealize.ShloMosaic Idealize.ShloMosaic.ValueIdx Cert.PairSpec

/-- Row p of a block's pre-activation: features of row p against each output channel's weights, plus the bias. -/
def preB (x : Vec Ideal S1x256x384 .f32) (w : Vec Ideal S128x384 .f32) (b : Vec Ideal S128 .f32) (p : Fin 256) (h : Fin 128) : EReal :=
  (∑ k : Fin 384, x (ix3 0 p k) * w (ix2 h k)) + b (ix1 h)

/-- A lane sum over the 128 channels of a [256, 128] value, read at row p. -/
theorem laneSum_apply (src : FVec Ideal S256x128 .f32) (p : Fin 256) :
    multiReduction (F := Ideal) .add [1] S256 src 0x00000000#32 reduces_S256x128_S256 (.inl rfl) rfl (ix1 p)
      = ∑ k : Fin 128, src (ix2 p k) := by
  refine (Ideal.multiReduction_add_single src 0x00000000#32 reduces_S256x128_S256 (.inl rfl) rfl (ix1 p)).trans ?_
  refine Finset.sum_congr rfl fun k _ => ?_
  exact congrArg src (funext fun a => Fin.ext (by match a with | ⟨0, _⟩ => rfl | ⟨1, _⟩ => rfl))

/-- A [128] vector as a [1, 128] row, read at a channel. -/
theorem row_apply (g : Vec Ideal S128 .f32) (u : Fin 1) (h : Fin 128) : k0_pay5 (F := Ideal) g (ix2 u h) = g (ix1 h) := by
  unfold k0_pay5; rw [shapeCast_a_1a_apply]

theorem row_apply' (g : Vec Ideal S128 .f32) (u : Fin 1) (h : Fin 128) : k0_pay6 (F := Ideal) g (ix2 u h) = g (ix1 h) := by
  unfold k0_pay6; rw [shapeCast_a_1a_apply]

/-- The dense layer of the first branch at (p, h). -/
theorem dense_apply (x : Vec Ideal S1x256x384 .f32) (w : Vec Ideal S128x384 .f32) (b : Vec Ideal S128 .f32) (p : Fin 256) (h : Fin 128) :
    k0_pay3 (F := Ideal) x w b (ix2 p h) = preB x w b p h := by
  unfold k0_pay3 preB
  rw [addf_apply, broadcastTo_1b_ab_apply, shapeCast_a_1a_apply]
  refine congrArg (· + b (ix1 h)) ?_
  refine (Cert.LibMatmulPlain.matmul_plain_zero_apply dot_S256x384_S384x128_S256x128_1_0_0_1_n_n rfl none _ _ p h).trans ?_
  refine Finset.sum_congr rfl fun k _ => ?_
  rw [truncf_apply, shapeCast_1ab_ab_apply, transpose_ix2_apply, truncf_apply]

/-- The dense layer of the second branch at (p, h): the same function of its own block, weights and bias. -/
theorem dense_apply' (x : Vec Ideal S1x256x384 .f32) (w : Vec Ideal S128x384 .f32) (b : Vec Ideal S128 .f32) (p : Fin 256) (h : Fin 128) :
    k0_pay4 (F := Ideal) x w b (ix2 p h) = preB x w b p h := by
  unfold k0_pay4 preB
  rw [addf_apply, broadcastTo_1b_ab_apply, shapeCast_a_1a_apply]
  refine congrArg (· + b (ix1 h)) ?_
  refine (Cert.LibMatmulPlain.matmul_plain_zero_apply dot_S256x384_S384x128_S256x128_1_0_0_1_n_n rfl none _ _ p h).trans ?_
  refine Finset.sum_congr rfl fun k _ => ?_
  rw [truncf_apply, shapeCast_1ab_ab_apply, transpose_ix2_apply, truncf_apply]

/-- The mean column at row p is the mean of the pre-activation's row p. -/
theorem mean_apply (x : Vec Ideal S1x256x384 .f32) (w : Vec Ideal S128x384 .f32) (b : Vec Ideal S128 .f32) (p : Fin 256) (u : Fin 1) :
    k0_pay7 (F := Ideal) x w b (ix2 p u) = mean (preB x w b p) := by
  unfold k0_pay7 mean
  rw [divf_apply, Cert.Columns.shapeCast_a_a1_apply, broadcast_apply, laneSum_apply]
  refine congrArg (Ideal.div · _) (Finset.sum_congr rfl fun k _ => dense_apply x w b p k)

/-- The centred pre-activation at (p, h). -/
theorem centred_apply (x : Vec Ideal S1x256x384 .f32) (w : Vec Ideal S128x384 .f32) (b : Vec Ideal S128 .f32) (p : Fin 256) (h : Fin 128) :
    k0_pay9 (F := Ideal) x w b (ix2 p h) = preB x w b p h - mean (preB x w b p) := by
  unfold k0_pay9
  rw [subf_apply, Cert.Columns.broadcastTo_a1_ab_apply, dense_apply, mean_apply]

/-- The variance column at row p is the mean of the squared deviations of the pre-activation's row p. -/
theorem var_apply (x : Vec Ideal S1x256x384 .f32) (w : Vec Ideal S128x384 .f32) (b : Vec Ideal S128 .f32) (p : Fin 256) (u : Fin 1) :
    k0_pay8 (F := Ideal) x w b (ix2 p u) = var (preB x w b p) := by
  unfold k0_pay8 var
  rw [divf_apply, Cert.Columns.shapeCast_a_a1_apply, broadcast_apply, laneSum_apply]
  refine congrArg (Ideal.div · _) (Finset.sum_congr rfl fun k _ => ?_)
  rw [mulf_apply, subf_apply, Cert.Columns.broadcastTo_a1_ab_apply, dense_apply, mean_apply]

end Cert.KernelIdeal.PairBody

end
-- ==== Proof.ProjBody.lean ====
/-
  The first kernel's body, part two: normalise each row, project it on one half of Wout, scale.

  For row p of a block: the centred pre-activation times the reciprocal root of variance plus epsilon, times the gain,
  plus the offset is the specification's normalised row. The first branch contracts it with the first 128 columns of
  Wout (sliced, transposed, accumulated from zero: the plain sum over the channel), scales by 2^-18 and adds bout; the
  second branch contracts its own normalised row with the last 128 columns and scales. Both are stored as [1, 256, 128].
-/
import proofs.«168083_j89464168775793_2_alg».proof.Proof.DenseBody

noncomputable section

open scoped BigOperators

namespace Cert.KernelIdeal.PairBody

open Cert.KernelIdeal Cert.KernelIdeal.Gen Idealize.ShloMosaic Idealize.ShloMosaic.ValueIdx Cert.PairSpec

/-- The reciprocal square root of a vector, read at an index. -/
theorem rsqrt_apply {s : Shape} {φ : FTy} (a : FVec Ideal s φ) (i : s.Idx) : rsqrt a i = Ideal.rsqrt (a i) := rfl

/-- Row p of a block after the dense layer and the layer normalisation. -/
def actB (x : Vec Ideal S1x256x384 .f32) (w : Vec Ideal S128x384 .f32) (b γ β : Vec Ideal S128 .f32) (p : Fin 256) (h : Fin 128) : EReal :=
  lnRow (preB x w b p) (fun k => γ (ix1 k)) (fun k => β (ix1 k)) h

/-- The first half of Wout, transposed, at (h, z). -/
theorem woutLo_apply (wo : Vec Ideal S128x256 .f32) (h z : Fin 128) :
    (transpose S128x128 [1, 0] (truncf .bf16 (extractStridedSlice S128x128 ![0, 0] wo slices_S128x256_o0_0_S128x128) bitsLt_bf16_f32)
      transposes_S128x128_p1_0_S128x128 : FVec Ideal S128x128 .bf16) (ix2 h z) = wo (ix2 z (lo h)) := by
  rw [transpose_ix2_apply, truncf_apply]
  exact slice2_axis1_apply 0 wo slices_S128x256_o0_0_S128x128 z h (lo h) (Nat.zero_add _).symm

/-- The second half of Wout, transposed, at (h, z). -/
theorem woutHi_apply (wo : Vec Ideal S128x256 .f32) (h z : Fin 128) :
    (transpose S128x128 [1, 0] (truncf .bf16 (extractStridedSlice S128x128 ![0, 128] wo slices_S128x256_o0_128_S128x128) bitsLt_bf16_f32)
      transposes_S128x128_p1_0_S128x128 : FVec Ideal S128x128 .bf16) (ix2 h z) = wo (ix2 z (hi h)) := by
  rw [transpose_ix2_apply, truncf_apply]
  exact slice2_axis1_apply 128 wo slices_S128x256_o0_128_S128x128 z h (hi h) rfl

/-- The first branch's projected block at (p, z), from the row statistics of part one. -/
theorem projLo_apply (x : Vec Ideal S1x256x384 .f32) (w : Vec Ideal S128x384 .f32) (b γ β : Vec Ideal S128 .f32)
    (wo : Vec Ideal S128x256 .f32) (bo : Vec Ideal S128 .f32) (p : Fin 256) (z : Fin 128) :
    k0_pay11 (F := Ideal) (k0_pay5 γ) (k0_pay6 β) (k0_pay8 x w b) (k0_pay9 x w b) wo bo (ix2 p z)
      = (∑ h : Fin 128, actB x w b γ β p h * wo (ix2 z (lo h))) * Ideal.ofBits .f32 0x36800000#32 + bo (ix1 z) := by
  unfold k0_pay11
  rw [addf_apply, mulf_apply, broadcast_apply, broadcastTo_1b_ab_apply, shapeCast_a_1a_apply]
  refine congrArg (fun s => s * Ideal.ofBits .f32 0x36800000#32 + bo (ix1 z)) ?_
  refine (Cert.LibMatmulPlain.matmul_plain_zero_apply dot_S256x128_S128x128_S256x128_1_0_0_1_n_n rfl none _ _ p z).trans ?_
  refine Finset.sum_congr rfl fun h _ => ?_
  rw [woutLo_apply, truncf_apply, addf_apply, mulf_apply, mulf_apply, broadcastTo_1b_ab_apply, broadcastTo_1b_ab_apply,
    Cert.Columns.broadcastTo_a1_ab_apply, row_apply, row_apply', centred_apply]
  refine congrArg (fun s => s * wo (ix2 z (lo h))) ?_
  rw [rsqrt_apply, addf_apply, broadcast_apply, var_apply]
  rfl

/-! The second branch normalises inside the same payload; its steps are named here over a variable block. -/

/-- The column of row means of a [256, 128] block. -/
def meanCol (Y : FVec Ideal S256x128 .f32) : FVec Ideal S256x1 .f32 :=
  divf (shapeCast S256x1 (multiReduction (F := Ideal) .add [1] S256 Y 0x00000000#32 reduces_S256x128_S256 (.inl rfl) rfl) shapeCasts_S256_S256x1)
    (broadcast S256x1 (Scalar.ofBits .f32 0x43000000#32))

theorem meanCol_apply (Y : FVec Ideal S256x128 .f32) (p : Fin 256) (u : Fin 1) : meanCol Y (ix2 p u) = mean (fun k => Y (ix2 p k)) := by
  unfold meanCol mean
  rw [divf_apply, Cert.Columns.shapeCast_a_a1_apply, broadcast_apply, laneSum_apply]
  rfl

/-- The block with each row's mean subtracted. -/
def centredBlk (Y : FVec Ideal S256x128 .f32) : FVec Ideal S256x128 .f32 :=
  subf Y (broadcastTo S256x128 (meanCol Y) broadcasts_S256x1_S256x128)

theorem centredBlk_apply (Y : FVec Ideal S256x128 .f32) (p : Fin 256) (h : Fin 128) :
    centredBlk Y (ix2 p h) = Y (ix2 p h) - mean (fun k => Y (ix2 p k)) := by
  unfold centredBlk
  rw [subf_apply, Cert.Columns.broadcastTo_a1_ab_apply, meanCol_apply]

/-- The column of row variances. -/
def varCol (Y : FVec Ideal S256x128 .f32) : FVec Ideal S256x1 .f32 :=
  divf (shapeCast S256x1 (multiReduction (F := Ideal) .add [1] S256 (mulf (centredBlk Y) (centredBlk Y)) 0x00000000#32 reduces_S256x128_S256 (.inl rfl) rfl)
      shapeCasts_S256_S256x1)
    (broadcast S256x1 (Scalar.ofBits .f32 0x43000000#32))

theorem varCol_apply (Y : FVec Ideal S256x128 .f32) (p : Fin 256) (u : Fin 1) : varCol Y (ix2 p u) = var (fun k => Y (ix2 p k)) := by
  unfold varCol var
  rw [divf_apply, Cert.Columns.shapeCast_a_a1_apply, broadcast_apply, laneSum_apply]
  refine congrArg (Ideal.div · _) (Finset.sum_congr rfl fun k _ => ?_)
  rw [mulf_apply, centredBlk_apply]

/-- The normalised block: centred, scaled by the reciprocal root of variance plus epsilon, gain and offset rows. -/
def lnBlk (Y : FVec Ideal S256x128 .f32) (g bt : FVec Ideal S1x128 .f32) : FVec Ideal S256x128 .f32 :=
  addf (mulf (mulf (centredBlk Y)
      (broadcastTo S256x128 (rsqrt (addf (varCol Y) (broadcast S256x1 (Scalar.ofBits .f32 0x3727C5AC#32)))) broadcasts_S256x1_S256x128))
      (broadcastTo S256x128 g broadcasts_S1x128_S256x128))
    (broadcastTo S256x128 bt broadcasts_S1x128_S256x128)

theorem lnBlk_apply (Y : FVec Ideal S256x128 .f32) (g bt : FVec Ideal S1x128 .f32) (p : Fin 256) (h : Fin 128) :
    lnBlk Y g bt (ix2 p h) = lnRow (fun k => Y (ix2 p k)) (fun k => g (ix2 0 k)) (fun k => bt (ix2 0 k)) h := by
  unfold lnBlk lnRow
  rw [addf_apply, mulf_apply, mulf_apply, broadcastTo_1b_ab_apply, broadcastTo_1b_ab_apply,
    Cert.Columns.broadcastTo_a1_ab_apply, rsqrt_apply, addf_apply, broadcast_apply, varCol_apply, centredBlk_apply]
  rfl

/-- The second branch's payload is the normalised pre-activation against the second half of Wout, from zero. -/
theorem projHi_eq (Y : FVec Ideal S256x128 .f32) (g bt : FVec Ideal S1x128 .f32) (wo : Vec Ideal S128x256 .f32) :
    k0_pay10 (F := Ideal) Y g bt wo
      = matmul dot_S256x128_S128x128_S256x128_1_0_0_1_n_n none (truncf .bf16 (lnBlk Y g bt) bitsLt_bf16_f32)
          (transpose S128x128 [1, 0] (truncf .bf16 (extractStridedSlice S128x128 ![0, 128] wo slices_S128x256_o0_128_S128x128) bitsLt_bf16_f32)
            transposes_S128x128_p1_0_S128x128)
          (constant S256x128 .f32 0x00000000#32) := rfl

/-- The second branch's projected block at (p, z): the body recomputes the row statistics of its own pre-activation. -/
theorem projHi_apply (x : Vec Ideal S1x256x384 .f32) (w : Vec Ideal S128x384 .f32) (b γ β : Vec Ideal S128 .f32)
    (wo : Vec Ideal S128x256 .f32) (p : Fin 256) (z : Fin 128) :
    k0_pay10 (F := Ideal) (k0_pay4 x w b) (k0_pay5 γ) (k0_pay6 β) wo (ix2 p z)
      = ∑ h : Fin 128, actB x w b γ β p h * wo (ix2 z (hi h)) := by
  rw [projHi_eq]
  refine (Cert.LibMatmulPlain.matmul_plain_zero_apply dot_S256x128_S128x128_S256x128_1_0_0_1_n_n rfl none _ _ p z).trans ?_
  refine Finset.sum_congr rfl fun h _ => ?_
  rw [woutHi_apply, truncf_apply, lnBlk_apply]
  unfold actB
  refine congrArg (fun s => s * wo (ix2 z (hi h))) ?_
  have e1 : (fun k => k0_pay4 (F := Ideal) x w b (ix2 p k)) = preB x w b p := funext fun k => dense_apply' x w b p k
  have e2 : (fun k => k0_pay5 (F := Ideal) γ (ix2 0 k)) = fun k => γ (ix1 k) := funext fun k => row_apply γ 0 k
  have e3 : (fun k => k0_pay6 (F := Ideal) β (ix2 0 k)) = fun k => β (ix1 k) := funext fun k => row_apply' β 0 k
  rw [e1, e2, e3]

/-- The block stored to the first output window at (0, p, z). -/
theorem storeLo_apply (x : Vec Ideal S1x256x384 .f32) (w : Vec Ideal S128x384 .f32) (b γ β : Vec Ideal S128 .f32)
    (wo : Vec Ideal S128x256 .f32) (bo : Vec Ideal S128 .f32) (u : Fin 1) (p : Fin 256) (z : Fin 128) :
    k0_pay1 (F := Ideal) (k0_pay11 (k0_pay5 γ) (k0_pay6 β) (k0_pay8 x w b) (k0_pay9 x w b) wo bo) (ix3 u p z)
      = (∑ h : Fin 128, actB x w b γ β p h * wo (ix2 z (lo h))) * Ideal.ofBits .f32 0x36800000#32 + bo (ix1 z) := by
  unfold k0_pay1
  rw [shapeCast_ab_1ab_apply, projLo_apply]

/-- The block stored to the second output window at (0, p, z). -/
theorem storeHi_apply (x : Vec Ideal S1x256x384 .f32) (w : Vec Ideal S128x384 .f32) (b γ β : Vec Ideal S128 .f32)
    (wo : Vec Ideal S128x256 .f32) (u : Fin 1) (p : Fin 256) (z : Fin 128) :
    k0_pay2 (F := Ideal) (k0_pay10 (k0_pay4 x w b) (k0_pay5 γ) (k0_pay6 β) wo) (ix3 u p z)
      = (∑ h : Fin 128, actB x w b γ β p h * wo (ix2 z (hi h))) * Ideal.ofBits .f32 0x36800000#32 := by
  unfold k0_pay2
  rw [shapeCast_ab_1ab_apply, mulf_apply, broadcast_apply, projHi_apply]
  rfl

end Cert.KernelIdeal.PairBody

end
-- ==== Proof.DenseArray.lean ====
/-
  The first kernel's two output arrays, whole.

  The grid has two points; point t stages rows 256·t … 256·t + 255 of each feature array and the whole of every
  weight, bias, gain and offset, and writes back rows 256·t … of each of its two outputs. A stored block is a function
  of row p of its feature block only (the dense layer, the normalisation and the projection are all row-wise), so block
  t of an output is rows 256·t … of ONE array — the specification's projected array of the whole arguments — and the two
  blocks tile the 512 rows: the output ends as that array.
-/
import proofs.«168083_j89464168775793_2_alg».proof.Proof.Gen.KernelIdeal.Frame
import proofs.«168083_j89464168775793_2_alg».proof.Proof.ProjBody
import Idealize.ShloMosaic.Lib.Pipeline.Value
import Idealize.ShloMosaic.Lib.ValueIdx

noncomputable section

open scoped BigOperators

namespace Cert.KernelIdeal.PairArray

open Cert.KernelIdeal Cert.KernelIdeal.Gen Cert.KernelIdeal.PairBody Cert.PairSpec
open Idealize.ShloMosaic Idealize.ShloMosaic.TcCoe Idealize.ShloMosaic.ValueIdx Idealize.SL.Sem
open Idealize.ShloMosaic.Pipeline (Dat Cfg Window)

/-! ## One point, over plain variables -/

/-- A normalised row of a block whose row p is row n of the array, with the same weights, is the array's row n. -/
theorem actB_eq_act (x : Vec Ideal S1x256x384 .f32) (w : Vec Ideal S128x384 .f32) (b γ β : Vec Ideal S128 .f32)
    (s : S1x512x384.Idx → EReal) (W : S128x384.Idx → EReal) (b' γ' β' : S128.Idx → EReal) (p : Fin 256) (n : Fin 512)
    (hx : ∀ k : Fin 384, x (ix3 0 p k) = s (ix3 0 n k)) (hw : ∀ (h : Fin 128) (k : Fin 384), w (ix2 h k) = W (ix2 h k))
    (hb : ∀ h : Fin 128, b (ix1 h) = b' (ix1 h)) (hγ : ∀ h : Fin 128, γ (ix1 h) = γ' (ix1 h)) (hβ : ∀ h : Fin 128, β (ix1 h) = β' (ix1 h))
    (h : Fin 128) : actB x w b γ β p h = act s W b' γ' β' n h := by
  have e : preB x w b p = pre s W b' n := funext fun k => by
    unfold preB pre
    rw [hb k]
    exact congrArg (· + b' (ix1 k)) (Finset.sum_congr rfl fun j _ => by rw [hx j, hw k j])
  unfold actB act
  rw [e, funext hγ, funext hβ]

/-- THE FIRST OUTPUT'S BLOCK: stored entry y of a block that is rows r … of the arguments is the projected array at
    row r + y₁, column y₂. -/
theorem storeLo_eq_arrA (x : Vec Ideal S1x256x384 .f32) (w : Vec Ideal S128x384 .f32) (b γ β : Vec Ideal S128 .f32)
    (wo : Vec Ideal S128x256 .f32) (bo : Vec Ideal S128 .f32)
    (s : S1x512x384.Idx → EReal) (W : S128x384.Idx → EReal) (b' γ' β' : S128.Idx → EReal) (Wo : S128x256.Idx → EReal) (bo' : S128.Idx → EReal)
    (r : ℕ) (hx : ∀ (p : Fin 256) (k : Fin 384) (n : Fin 512), n.val = r + p.val → x (ix3 0 p k) = s (ix3 0 n k))
    (hw : ∀ (h : Fin 128) (k : Fin 384), w (ix2 h k) = W (ix2 h k))
    (hb : ∀ h : Fin 128, b (ix1 h) = b' (ix1 h)) (hγ : ∀ h : Fin 128, γ (ix1 h) = γ' (ix1 h)) (hβ : ∀ h : Fin 128, β (ix1 h) = β' (ix1 h))
    (hwo : ∀ (z : Fin 128) (k : Fin 256), wo (ix2 z k) = Wo (ix2 z k)) (hbo : ∀ z : Fin 128, bo (ix1 z) = bo' (ix1 z))
    (y : S1x256x128.Idx) (i : S1x512x128.Idx) (h1 : (i 1).val = r + (y 1).val) (h2 : (i 2).val = (y 2).val) :
    k0_pay1 (F := Ideal) (k0_pay11 (k0_pay5 γ) (k0_pay6 β) (k0_pay8 x w b) (k0_pay9 x w b) wo bo) y = arrA s W b' γ' β' Wo bo' i := by
  obtain ⟨u, p, z, rfl⟩ : ∃ (u : Fin 1) (p : Fin 256) (z : Fin 128), y = ix3 u p z := ⟨y 0, y 1, y 2, eq_ix3 y⟩
  obtain ⟨u', n, z', rfl⟩ : ∃ (u' : Fin 1) (n : Fin 512) (z' : Fin 128), i = ix3 u' n z' := ⟨i 0, i 1, i 2, eq_ix3 i⟩
  have hn : n.val = r + p.val := h1
  obtain rfl : z' = z := Fin.ext h2
  rw [storeLo_apply]
  show _ = projA (act s W b' γ' β') Wo bo' n z'
  unfold projA
  rw [hbo z']
  refine congrArg (fun v => v * Ideal.ofBits .f32 0x36800000#32 + bo' (ix1 z')) (Finset.sum_congr rfl fun h _ => ?_)
  rw [hwo, actB_eq_act x w b γ β s W b' γ' β' p n (fun k => hx p k n hn) hw hb hγ hβ h]

/-- THE SECOND OUTPUT'S BLOCK, the same way. -/
theorem storeHi_eq_arrB (x : Vec Ideal S1x256x384 .f32) (w : Vec Ideal S128x384 .f32) (b γ β : Vec Ideal S128 .f32)
    (wo : Vec Ideal S128x256 .f32)
    (s : S1x512x384.Idx → EReal) (W : S128x384.Idx → EReal) (b' γ' β' : S128.Idx → EReal) (Wo : S128x256.Idx → EReal)
    (r : ℕ) (hx : ∀ (p : Fin 256) (k : Fin 384) (n : Fin 512), n.val = r + p.val → x (ix3 0 p k) = s (ix3 0 n k))
    (hw : ∀ (h : Fin 128) (k : Fin 384), w (ix2 h k) = W (ix2 h k))
    (hb : ∀ h : Fin 128, b (ix1 h) = b' (ix1 h)) (hγ : ∀ h : Fin 128, γ (ix1 h) = γ' (ix1 h)) (hβ : ∀ h : Fin 128, β (ix1 h) = β' (ix1 h))
    (hwo : ∀ (z : Fin 128) (k : Fin 256), wo (ix2 z k) = Wo (ix2 z k))
    (y : S1x256x128.Idx) (i : S1x512x128.Idx) (h1 : (i 1).val = r + (y 1).val) (h2 : (i 2).val = (y 2).val) :
    k0_pay2 (F := Ideal) (k0_pay10 (k0_pay4 x w b) (k0_pay5 γ) (k0_pay6 β) wo) y = arrB s W b' γ' β' Wo i := by
  obtain ⟨u, p, z, rfl⟩ : ∃ (u : Fin 1) (p : Fin 256) (z : Fin 128), y = ix3 u p z := ⟨y 0, y 1, y 2, eq_ix3 y⟩
  obtain ⟨u', n, z', rfl⟩ : ∃ (u' : Fin 1) (n : Fin 512) (z' : Fin 128), i = ix3 u' n z' := ⟨i 0, i 1, i 2, eq_ix3 i⟩
  have hn : n.val = r + p.val := h1
  obtain rfl : z' = z := Fin.ext h2
  rw [storeHi_apply]
  show _ = projB (act s W b' γ' β') Wo n z'
  unfold projB
  refine congrArg (fun v => v * Ideal.ofBits .f32 0x36800000#32) (Finset.sum_congr rfl fun h _ => ?_)
  rw [hwo, actB_eq_act x w b γ β s W b' γ' β' p n (fun k => hx p k n hn) hw hb hγ hβ h]

/-! ## The windows' blocks, read off the region's entry contents -/

section Whole

variable (V : (c : Dev nD) → (b : Ref sig .tc) → Buf (Elt Ideal) ((c : Thread nD τ).loc b))

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The index maps over the two grid points: the row windows move with the point along the rows, every other window
    stays on its one block. -/
theorem rowMaps : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_10.index t (0 : Fin 3) = 0 ∧ win0_10.index t (1 : Fin 3) = t.val ∧ win0_10.index t (2 : Fin 3) = 0)
    ∧ (win0_11.index t (0 : Fin 3) = 0 ∧ win0_11.index t (1 : Fin 3) = t.val ∧ win0_11.index t (2 : Fin 3) = 0)
    ∧ (win0_2.index t (0 : Fin 2) = 0 ∧ win0_2.index t (1 : Fin 2) = 0)
    ∧ (win0_4.index t (0 : Fin 2) = 0 ∧ win0_4.index t (1 : Fin 2) = 0)
    ∧ (win0_8.index t (0 : Fin 2) = 0 ∧ win0_8.index t (1 : Fin 2) = 0)
    ∧ win0_3.index t (0 : Fin 1) = 0 ∧ win0_5.index t (0 : Fin 1) = 0 ∧ win0_6.index t (0 : Fin 1) = 0
    ∧ win0_7.index t (0 : Fin 1) = 0 ∧ win0_9.index t (0 : Fin 1) = 0 :=
  (by decide +kernel : ∀ t : Fin grid0.N, _)

/-- Each of the two row blocks is some point's. -/
theorem point_of_block : ∀ q : Fin 2, ∃ t : Fin cfg0.N, t.val = q.val :=
  (by decide +kernel : ∀ q : Fin 2, ∃ t : Fin grid0.N, t.val = q.val)

/-- The first feature window's block at point t is rows 256·t … of the first feature array. -/
theorem feat0_at (c : Dev nD) (t : Fin cfg0.N) (p : Fin 256) (k : Fin 384) (n : Fin 512) (hn : n.val = 256 * t.val + p.val) :
    iblk0 V c 0 t (ix3 0 p k) = V c main_arg0 (ix3 0 n k) := by
  obtain ⟨⟨e0, e1, e2⟩, -⟩ := rowMaps t
  show V c (Pipeline.arrRef spec0 0) (((cfg0.win 0).blk t).view.emb (ix3 0 p k)) = _
  refine congrArg (V c main_arg0) ?_
  funext a; apply Fin.ext
  match a with
  | ⟨0, _⟩ => show win0_0.index t (0 : Fin 3) * 1 + 1 * 0 = 0; omega
  | ⟨1, _⟩ => show win0_0.index t (1 : Fin 3) * 256 + 1 * p.val = n.val; omega
  | ⟨2, _⟩ => show win0_0.index t (2 : Fin 3) * 384 + 1 * k.val = k.val; omega

/-- The second feature window's block at point t is rows 256·t … of the second feature array. -/
theorem feat1_at (c : Dev nD) (t : Fin cfg0.N) (p : Fin 256) (k : Fin 384) (n : Fin 512) (hn : n.val = 256 * t.val + p.val) :
    iblk0 V c 1 t (ix3 0 p k) = V c main_arg1 (ix3 0 n k) := by
  obtain ⟨-, ⟨e0, e1, e2⟩, -⟩ := rowMaps t
  show V c (Pipeline.arrRef spec0 1) (((cfg0.win 1).blk t).view.emb (ix3 0 p k)) = _
  refine congrArg (V c main_arg1) ?_
  funext a; apply Fin.ext
  match a with
  | ⟨0, _⟩ => show win0_1.index t (0 : Fin 3) * 1 + 1 * 0 = 0; omega
  | ⟨1, _⟩ => show win0_1.index t (1 : Fin 3) * 256 + 1 * p.val = n.val; omega
  | ⟨2, _⟩ => show win0_1.index t (2 : Fin 3) * 384 + 1 * k.val = k.val; omega

/-- A window that stages its whole array holds that array, entry by entry: the two weight matrices, … -/
theorem w2_at (c : Dev nD) (t : Fin cfg0.N) (h : Fin 128) (k : Fin 384) : iblk0 V c 2 t (ix2 h k) = V c main_arg2 (ix2 h k) := by
  obtain ⟨-, -, -, -, ⟨e0, e1⟩, -⟩ := rowMaps t
  show V c (Pipeline.arrRef spec0 2) (((cfg0.win 2).blk t).view.emb (ix2 h k)) = _
  refine congrArg (V c main_arg2) ?_
  funext a; apply Fin.ext
  match a with
  | ⟨0, _⟩ => show win0_2.index t (0 : Fin 2) * 128 + 1 * h.val = h.val; omega
  | ⟨1, _⟩ => show win0_2.index t (1 : Fin 2) * 384 + 1 * k.val = k.val; omega

theorem w4_at (c : Dev nD) (t : Fin cfg0.N) (h : Fin 128) (k : Fin 384) : iblk0 V c 4 t (ix2 h k) = V c main_arg4 (ix2 h k) := by
  obtain ⟨-, -, -, -, -, ⟨e0, e1⟩, -⟩ := rowMaps t
  show V c (Pipeline.arrRef spec0 4) (((cfg0.win 4).blk t).view.emb (ix2 h k)) = _
  refine congrArg (V c main_arg4) ?_
  funext a; apply Fin.ext
  match a with
  | ⟨0, _⟩ => show win0_4.index t (0 : Fin 2) * 128 + 1 * h.val = h.val; omega
  | ⟨1, _⟩ => show win0_4.index t (1 : Fin 2) * 384 + 1 * k.val = k.val; omega

/-- … the output weights, … -/
theorem w8_at (c : Dev nD) (t : Fin cfg0.N) (z : Fin 128) (k : Fin 256) : iblk0 V c 8 t (ix2 z k) = V c main_arg8 (ix2 z k) := by
  obtain ⟨-, -, -, -, -, -, ⟨e0, e1⟩, -⟩ := rowMaps t
  show V c (Pipeline.arrRef spec0 8) (((cfg0.win 8).blk t).view.emb (ix2 z k)) = _
  refine congrArg (V c main_arg8) ?_
  funext a; apply Fin.ext
  match a with
  | ⟨0, _⟩ => show win0_8.index t (0 : Fin 2) * 128 + 1 * z.val = z.val; omega
  | ⟨1, _⟩ => show win0_8.index t (1 : Fin 2) * 256 + 1 * k.val = k.val; omega

/-- … and the five vectors of 128 channels. -/
theorem v3_at (c : Dev nD) (t : Fin cfg0.N) (h : Fin 128) : iblk0 V c 3 t (ix1 h) = V c main_arg3 (ix1 h) := by
  obtain ⟨-, -, -, -, -, -, -, e, -⟩ := rowMaps t
  show V c (Pipeline.arrRef spec0 3) (((cfg0.win 3).blk t).view.emb (ix1 h)) = _
  refine congrArg (V c main_arg3) ?_
  funext a; apply Fin.ext
  match a with
  | ⟨0, _⟩ => show win0_3.index t (0 : Fin 1) * 128 + 1 * h.val = h.val; omega

theorem v5_at (c : Dev nD) (t : Fin cfg0.N) (h : Fin 128) : iblk0 V c 5 t (ix1 h) = V c main_arg5 (ix1 h) := by
  obtain ⟨-, -, -, -, -, -, -, -, e, -⟩ := rowMaps t
  show V c (Pipeline.arrRef spec0 5) (((cfg0.win 5).blk t).view.emb (ix1 h)) = _
  refine congrArg (V c main_arg5) ?_
  funext a; apply Fin.ext
  match a with
  | ⟨0, _⟩ => show win0_5.index t (0 : Fin 1) * 128 + 1 * h.val = h.val; omega

theorem v6_at (c : Dev nD) (t : Fin cfg0.N) (h : Fin 128) : iblk0 V c 6 t (ix1 h) = V c main_arg6 (ix1 h) := by
  obtain ⟨-, -, -, -, -, -, -, -, -, e, -⟩ := rowMaps t
  show V c (Pipeline.arrRef spec0 6) (((cfg0.win 6).blk t).view.emb (ix1 h)) = _
  refine congrArg (V c main_arg6) ?_
  funext a; apply Fin.ext
  match a with
  | ⟨0, _⟩ => show win0_6.index t (0 : Fin 1) * 128 + 1 * h.val = h.val; omega

theorem v7_at (c : Dev nD) (t : Fin cfg0.N) (h : Fin 128) : iblk0 V c 7 t (ix1 h) = V c main_arg7 (ix1 h) := by
  obtain ⟨-, -, -, -, -, -, -, -, -, -, e, -⟩ := rowMaps t
  show V c (Pipeline.arrRef spec0 7) (((cfg0.win 7).blk t).view.emb (ix1 h)) = _
  refine congrArg (V c main_arg7) ?_
  funext a; apply Fin.ext
  match a with
  | ⟨0, _⟩ => show win0_7.index t (0 : Fin 1) * 128 + 1 * h.val = h.val; omega

theorem v9_at (c : Dev nD) (t : Fin cfg0.N) (h : Fin 128) : iblk0 V c 9 t (ix1 h) = V c main_arg9 (ix1 h) := by
  obtain ⟨-, -, -, -, -, -, -, -, -, -, -, e⟩ := rowMaps t
  show V c (Pipeline.arrRef spec0 9) (((cfg0.win 9).blk t).view.emb (ix1 h)) = _
  refine congrArg (V c main_arg9) ?_
  funext a; apply Fin.ext
  match a with
  | ⟨0, _⟩ => show win0_9.index t (0 : Fin 1) * 128 + 1 * h.val = h.val; omega

/-! ## What a point writes back, the cover, the arrays -/

/-- WHAT POINT t WRITES BACK to the first output is block t of the first projected array of the entry contents. -/
theorem flushedLo (c : Dev nD) (t : Fin cfg0.N) :
    (dat0 (F := Ideal) V c).flushed 10 t = ((cfg0.win 10).blk t).view.read (Elt Ideal)
      (arrA (V c main_arg0) (V c main_arg2) (V c main_arg3) (V c main_arg6) (V c main_arg7) (V c main_arg8) (V c main_arg9)) := by
  show (cfg0.win 10).cut (grid0.coords t) ((dat0 V c).after 10 t) = _
  rw [after0_10]
  unfold out0_10
  rw [View.canon_unit_zero zeros3]
  simp only [View.ld_unit_zero (S := S1x256x384) zeros3, View.ld_unit_zero (S := S128x384) zeros2, View.ld_unit_zero (S := S128) zeros1,
    View.ld_unit_zero (S := S128x256) zeros2]
  obtain ⟨-, -, ⟨e0, e1, e2⟩, -⟩ := rowMaps t
  funext j
  refine storeLo_eq_arrA (iblk0 V c 0 t) (iblk0 V c 2 t) (iblk0 V c 3 t) (iblk0 V c 6 t) (iblk0 V c 7 t) (iblk0 V c 8 t) (iblk0 V c 9 t)
    (V c main_arg0) (V c main_arg2) (V c main_arg3) (V c main_arg6) (V c main_arg7) (V c main_arg8) (V c main_arg9) (256 * t.val)
    (fun p k n hn => feat0_at V c t p k n hn) (fun h k => w2_at V c t h k) (fun h => v3_at V c t h) (fun h => v6_at V c t h)
    (fun h => v7_at V c t h) (fun z k => w8_at V c t z k) (fun z => v9_at V c t z) j (((cfg0.win 10).blk t).view.emb j) ?_ ?_
  · show win0_10.index t (1 : Fin 3) * 256 + 1 * (j 1).val = 256 * t.val + (j 1).val; omega
  · show win0_10.index t (2 : Fin 3) * 128 + 1 * (j 2).val = (j 2).val; omega

/-- WHAT POINT t WRITES BACK to the second output is block t of the second projected array. -/
theorem flushedHi (c : Dev nD) (t : Fin cfg0.N) :
    (dat0 (F := Ideal) V c).flushed 11 t = ((cfg0.win 11).blk t).view.read (Elt Ideal)
      (arrB (V c main_arg1) (V c main_arg4) (V c main_arg5) (V c main_arg6) (V c main_arg7) (V c main_arg8)) := by
  show (cfg0.win 11).cut (grid0.coords t) ((dat0 V c).after 11 t) = _
  rw [after0_11]
  unfold out0_11
  rw [View.canon_unit_zero zeros3]
  simp only [View.ld_unit_zero (S := S1x256x384) zeros3, View.ld_unit_zero (S := S128x384) zeros2, View.ld_unit_zero (S := S128) zeros1,
    View.ld_unit_zero (S := S128x256) zeros2]
  obtain ⟨-, -, -, ⟨e0, e1, e2⟩, -⟩ := rowMaps t
  funext j
  refine storeHi_eq_arrB (iblk0 V c 1 t) (iblk0 V c 4 t) (iblk0 V c 5 t) (iblk0 V c 6 t) (iblk0 V c 7 t) (iblk0 V c 8 t)
    (V c main_arg1) (V c main_arg4) (V c main_arg5) (V c main_arg6) (V c main_arg7) (V c main_arg8) (256 * t.val)
    (fun p k n hn => feat1_at V c t p k n hn) (fun h k => w4_at V c t h k) (fun h => v5_at V c t h) (fun h => v6_at V c t h)
    (fun h => v7_at V c t h) (fun z k => w8_at V c t z k) j (((cfg0.win 11).blk t).view.emb j) ?_ ?_
  · show win0_11.index t (1 : Fin 3) * 256 + 1 * (j 1).val = 256 * t.val + (j 1).val; omega
  · show win0_11.index t (2 : Fin 3) * 128 + 1 * (j 2).val = (j 2).val; omega

/-- An index of the first output is in point t's block iff each coordinate is in the block's range on its axis. -/
theorem mem_blkLo (t : Fin cfg0.N) (i : S1x512x128.Idx) :
    i ∈ ((cfg0.win 10).blk t).view.set ↔ ∀ a : Fin 3, win0_10.index t a * S1x256x128.size a ≤ (i a).val ∧ (i a).val < win0_10.index t a * S1x256x128.size a + S1x256x128.size a := by
  show i ∈ ((View.whole main_v0_0).slice (win0_10.rect t)).set ↔ _
  rw [View.set_slice_whole, Rect.mem_set_unit]
  exact Iff.rfl

theorem mem_blkHi (t : Fin cfg0.N) (i : S1x512x128.Idx) :
    i ∈ ((cfg0.win 11).blk t).view.set ↔ ∀ a : Fin 3, win0_11.index t a * S1x256x128.size a ≤ (i a).val ∧ (i a).val < win0_11.index t a * S1x256x128.size a + S1x256x128.size a := by
  show i ∈ ((View.whole main_v0_1).slice (win0_11.rect t)).set ↔ _
  rw [View.set_slice_whole, Rect.mem_set_unit]
  exact Iff.rfl

/-- Row n of the first output is written by the point n / 256. -/
theorem coverLo (i : S1x512x128.Idx) : ∃ t : Fin cfg0.N, (cfg0.win 10).flush t = true ∧ i ∈ ((cfg0.win 10).blk t).view.set := by
  have hi0 : (i 0).val < 1 := (i 0).isLt
  have hi1 : (i 1).val < 512 := (i 1).isLt
  have hi2 : (i 2).val < 128 := (i 2).isLt
  obtain ⟨t, ht⟩ := point_of_block ⟨(i 1).val / 256, by omega⟩
  have ht' : t.val = (i 1).val / 256 := ht
  obtain ⟨-, -, ⟨e0, e1, e2⟩, -⟩ := rowMaps t
  refine ⟨t, flush0_10 t, ?_⟩
  rw [mem_blkLo]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 128 ≤ (i 2).val ∧ (i 2).val < win0_10.index t (2 : Fin 3) * 128 + 128; omega

theorem coverHi (i : S1x512x128.Idx) : ∃ t : Fin cfg0.N, (cfg0.win 11).flush t = true ∧ i ∈ ((cfg0.win 11).blk t).view.set := by
  have hi0 : (i 0).val < 1 := (i 0).isLt
  have hi1 : (i 1).val < 512 := (i 1).isLt
  have hi2 : (i 2).val < 128 := (i 2).isLt
  obtain ⟨t, ht⟩ := point_of_block ⟨(i 1).val / 256, by omega⟩
  have ht' : t.val = (i 1).val / 256 := ht
  obtain ⟨-, -, -, ⟨e0, e1, e2⟩, -⟩ := rowMaps t
  refine ⟨t, flush0_11 t, ?_⟩
  rw [mem_blkHi]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 128 ≤ (i 2).val ∧ (i 2).val < win0_11.index t (2 : Fin 3) * 128 + 128; omega

/-- THE FIRST OUTPUT after the region: the first projected array of the region's entry contents. -/
theorem denseLo_final (c : Dev nD) :
    (dat0 (F := Ideal) V c).arrAt 10 cfg0.N
      = arrA (V c main_arg0) (V c main_arg2) (V c main_arg3) (V c main_arg6) (V c main_arg7) (V c main_arg8) (V c main_arg9) :=
  (dat0 V c).arrAt_eq_of_cover 10 _ (fun t _ => flushedLo V c t) coverLo

/-- THE SECOND OUTPUT after the region: the second projected array of the region's entry contents. -/
theorem denseHi_final (c : Dev nD) :
    (dat0 (F := Ideal) V c).arrAt 11 cfg0.N
      = arrB (V c main_arg1) (V c main_arg4) (V c main_arg5) (V c main_arg6) (V c main_arg7) (V c main_arg8) :=
  (dat0 V c).arrAt_eq_of_cover 11 _ (fun t _ => flushedHi V c t) coverHi

end Whole

end Cert.KernelIdeal.PairArray

end
-- ==== Proof.LibUnitAxis.lean ====
/-
  Unit axes added by a shape cast or spread by a broadcast, read at an index — general in the extents and the
  element type.

  `jnp` code that compares every row with every other (`a[:, :, None] - b[:, None, :]`) or keeps a reduced axis
  (`keepdims=True`) prints as a shape cast that inserts an axis of extent one followed by a broadcast along it. Read
  at an index written by its coordinates:
    * `[a] → [a, 1]`:        entry `(i, 0)`    is the operand at `i`;
    * `[a, b] → [a, b, 1]`:  entry `(i, j, 0)` is the operand at `(i, j)`;
    * `[a, b] → [a, 1, b]`:  entry `(i, 0, j)` is the operand at `(i, j)`;
    * `[a, b, 1] → [a, b, c]` (broadcast): entry `(i, j, l)` is the operand at `(i, j, 0)`;
    * `[a, 1, c] → [a, b, c]` (broadcast): entry `(i, j, l)` is the operand at `(i, 0, l)`.
  The casts are row-major position arithmetic (`(i·b + j)·1 + 0 = i·b + j`); the broadcasts read coordinate `0` on an
  axis of extent one and the result's coordinate elsewhere.
-/
import Idealize.ShloMosaic.Lib.ValueIdx
import Idealize.ShloMosaic.Lib.Pipeline.Value
import Idealize.ShloMosaic.Lib.ValueLayout

noncomputable section

namespace Cert.LibUnitAxis

open Idealize.ShloMosaic Idealize.ShloMosaic.ValueIdx

/-! ## Shape casts that add a unit axis, read at an index -/

section Layout
variable {α : Type}

/-- A vector [a] cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## Broadcasts along a unit axis, read at an index -/

/-- An [a, b, 1] array broadcast to [a, b, c] reads, at (i, j, l), the operand at (i, j, 0). -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ x h (ix3 i j l) = x (ix3 i j (0 : Fin 1)) := by
  refine broadcastTo_apply x h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, l), the operand at (i, 0, l). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ x h (ix3 i j l) = x (ix3 i (0 : Fin 1) l) := by
  refine broadcastTo_apply x h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

end Layout

end Cert.LibUnitAxis

end
-- ==== Proof.OuterBody.lean ====
/-
  The second kernel's body at an index: an outer sum of two row blocks.

  The body loads a block pa : [1, 128, 128] of the first projected array and a block pb : [1, 128, 128] of the second,
  spreads pa along a new middle axis and pb along a new leading axis, and adds: the stored value at (0, p, q, z) is
  pa (0, p, z) + pb (0, q, z).
-/
import proofs.«168083_j89464168775793_2_alg».proof.Proof.Gen.KernelIdeal.Skeleton
import proofs.«168083_j89464168775793_2_alg».proof.Proof.LibUnitAxis
import Idealize.ShloMosaic.Lib.ValueIdx
import Idealize.ShloMosaic.Lib.Pipeline.Value
import Idealize.ShloMosaic.Lib.ValueLayout

noncomputable section

namespace Cert.KernelIdeal.PairBody

open Cert.KernelIdeal Cert.KernelIdeal.Gen Idealize.ShloMosaic Idealize.ShloMosaic.ValueIdx

/-- A [1, b, c] array broadcast to [a, b, c] reads, at (i, j, l), the operand at (0, j, l). -/
theorem broadcastTo_1bc_abc_apply {α : Type} {a b c : ℕ} (x : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ x h (ix3 i j l) = x (ix3 (0 : Fin 1) j l) := by
  refine broadcastTo_apply x h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

/-- The stored block of the second kernel at (0, p, q, z): the first operand's row p plus the second's row q. -/
theorem outer_apply (pa pb : Vec Ideal S1x128x128 .f32) (p q z : Fin 128) :
    k1_pay1 (F := Ideal) pa pb (ix4 0 p q z) = pa (ix3 0 p z) + pb (ix3 0 q z) := by
  unfold k1_pay1
  rw [shapeCast_abc_1abc_apply, addf_apply, Cert.LibUnitAxis.broadcastTo_a1c_abc_apply, broadcastTo_1bc_abc_apply,
    shapeCast_self, shapeCast_self, Cert.LibUnitAxis.shapeCast_ab_a1b_apply, shapeCast_ab_1ab_apply,
    shapeCast_1ab_ab_apply, shapeCast_1ab_ab_apply]

end Cert.KernelIdeal.PairBody

end
-- ==== Proof.OuterArray.lean ====
/-
  The second kernel's output array, from its blocks: an outer sum of the two projected arrays.

  The grid is 4 x 4. At grid point (i, j) the body reads block i of the first array (rows 128 i .. 128 i + 127) and
  block j of the second, and writes back the block (i, j) of the output: at (0, p, q, z) inside the block the value is
  pa (0, p, z) + pb (0, q, z). A block's element sits in its array, on each axis, at block index times block size plus
  its own coordinate; so the written value is the outer sum of the two whole arrays at the element's own array index
  (0, 128 i + p, 128 j + q, z). The sixteen blocks tile the output, so the output array after the run is the outer sum.
-/
import proofs.«168083_j89464168775793_2_alg».proof.Proof.Gen.KernelIdeal.Frame
import proofs.«168083_j89464168775793_2_alg».proof.Proof.OuterBody
import proofs.«168083_j89464168775793_2_alg».proof.Proof.Spec
import Idealize.ShloMosaic.Lib.Pipeline.Value
import Idealize.ShloMosaic.Lib.ValueIdx

noncomputable section

namespace Cert.KernelIdeal.PairArray

open Cert.KernelIdeal Cert.KernelIdeal.Gen Idealize.ShloMosaic Idealize.ShloMosaic.TcCoe Idealize.SL.Sem
open Idealize.ShloMosaic.ValueIdx
open Idealize.ShloMosaic.Pipeline (Dat)

/-! ## The body at an index of the block -/

theorem zero_off3 : (![0, 0, 0] : Fin 3 → Nat) = fun _ => 0 := funext fun a => by fin_cases a <;> rfl
theorem zero_off4 : (![0, 0, 0, 0] : Fin 4 → Nat) = fun _ => 0 := funext fun a => by fin_cases a <;> rfl

/-- The stored block at any of its indices j: row (j 1) of the first operand plus row (j 2) of the second, at column (j 3). -/
theorem outer_at (pa pb : Vec Ideal S1x128x128 .f32) (j : S1x128x128x128.Idx) :
    k1_pay1 (F := Ideal) pa pb j = pa (ix3 0 (j 1) (j 3)) + pb (ix3 0 (j 2) (j 3)) := by
  have e : j = ix4 (0 : Fin 1) (j 1) (j 2) (j 3) := by
    funext a
    match a with
    | ⟨0, _⟩ => exact Fin.ext (Nat.lt_one_iff.mp (j 0).isLt)
    | ⟨1, _⟩ => rfl
    | ⟨2, _⟩ => rfl
    | ⟨3, _⟩ => rfl
  exact (congrArg (k1_pay1 (F := Ideal) pa pb) e).trans (Cert.KernelIdeal.PairBody.outer_apply pa pb (j 1) (j 2) (j 3))

/-! ## The printed index maps over the sixteen grid points -/

/-- The block indices, decided over the grid: the first input moves with the output's second axis, the second input
    with its third, every other block index is 0, and the output's two moving block indices stay below 4. -/
theorem block_indices : ∀ t : Fin cfg1.N,
    win1_0.index t (0 : Fin 3) = 0 ∧ win1_0.index t (1 : Fin 3) = win1_2.index t (1 : Fin 4) ∧ win1_0.index t (2 : Fin 3) = 0
    ∧ win1_1.index t (0 : Fin 3) = 0 ∧ win1_1.index t (1 : Fin 3) = win1_2.index t (2 : Fin 4) ∧ win1_1.index t (2 : Fin 3) = 0
    ∧ win1_2.index t (0 : Fin 4) = 0 ∧ win1_2.index t (3 : Fin 4) = 0
    ∧ win1_2.index t (1 : Fin 4) ≤ 3 ∧ win1_2.index t (2 : Fin 4) ≤ 3 :=
  (by decide +kernel : ∀ t : Fin grid1.N, _)

/-- Every block (i, j) of the output is some grid point's. -/
theorem block_onto : ∀ (q1 q2 : Fin 4), ∃ t : Fin cfg1.N, win1_2.index t = ![0, q1.val, q2.val, 0] :=
  (by decide +kernel : ∀ (q1 q2 : Fin 4), ∃ t : Fin grid1.N, win1_2.index t = ![0, q1.val, q2.val, 0])

/-- An index of the output array is in point t's block iff each coordinate is in the block's range on its axis. -/
theorem mem_block (t : Fin cfg1.N) (i : S1x512x512x128.Idx) :
    i ∈ ((cfg1.win 2).blk t).view.set ↔ ∀ a : Fin 4, win1_2.index t a * S1x128x128x128.size a ≤ (i a).val
      ∧ (i a).val < win1_2.index t a * S1x128x128x128.size a + S1x128x128x128.size a := by
  show i ∈ ((View.whole main_v1).slice (win1_2.rect t)).set ↔ _
  rw [View.set_slice_whole, Rect.mem_set_unit]
  exact Iff.rfl

/-- The sixteen blocks cover the output array: the index (0, r, s, z) is in the block of the grid point whose
    block indices are (r / 128, s / 128). -/
theorem covered (i : S1x512x512x128.Idx) :
    ∃ t : Fin cfg1.N, (cfg1.win 2).flush t = true ∧ i ∈ ((cfg1.win 2).blk t).view.set := by
  have hi0 : (i 0).val < 1 := (i 0).isLt
  have hi1 : (i 1).val < 512 := (i 1).isLt
  have hi2 : (i 2).val < 512 := (i 2).isLt
  have hi3 : (i 3).val < 128 := (i 3).isLt
  obtain ⟨t, ht⟩ := block_onto ⟨(i 1).val / 128, by omega⟩ ⟨(i 2).val / 128, by omega⟩
  have q0 : win1_2.index t (0 : Fin 4) = 0 := congrFun ht 0
  have q1 : win1_2.index t (1 : Fin 4) = (i 1).val / 128 := congrFun ht 1
  have q2 : win1_2.index t (2 : Fin 4) = (i 2).val / 128 := congrFun ht 2
  have q3 : win1_2.index t (3 : Fin 4) = 0 := congrFun ht 3
  refine ⟨t, flush1_2 t, ?_⟩
  rw [mem_block]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 128 ≤ (i 1).val ∧ (i 1).val < win1_2.index t (1 : Fin 4) * 128 + 128; omega
  | ⟨2, _⟩ => show win1_2.index t (2 : Fin 4) * 128 ≤ (i 2).val ∧ (i 2).val < win1_2.index t (2 : Fin 4) * 128 + 128; omega
  | ⟨3, _⟩ => show win1_2.index t (3 : Fin 4) * 128 ≤ (i 3).val ∧ (i 3).val < win1_2.index t (3 : Fin 4) * 128 + 128; omega

/-- Reading two arrays at equal indices and adding gives equal sums. -/
theorem add_congr_idx (A0 A1 : S1x512x128.Idx → EReal) {i0 i0' i1 i1' : S1x512x128.Idx} (h0 : i0 = i0') (h1 : i1 = i1') :
    A0 i0 + A1 i1 = A0 i0' + A1 i1' := by rw [h0, h1]

section Array

variable (V : (c : Dev nD) → (b : Ref sig .tc) → Buf (Elt Ideal) ((c : Thread nD τ).loc b))

/-! ## What a grid point writes back -/

/-- WHAT POINT t WRITES BACK is block t of the outer sum of the two input arrays as the region finds them. -/
theorem flushed_eq_outerSum (c : Dev nD) (t : Fin cfg1.N) :
    (dat1 (F := Ideal) V c).flushed 2 t
      = ((cfg1.win 2).blk t).view.read (Elt Ideal) (Cert.PairSpec.outerSum (V c main_v0_0) (V c main_v0_1)) := by
  show (cfg1.win 2).cut (grid1.coords t) ((dat1 (F := Ideal) V c).after 2 t) = _
  rw [after1_2]
  unfold out1_2
  rw [View.canon_unit_zero zero_off4]
  simp only [View.ld_unit_zero (S := S1x128x128) zero_off3]
  obtain ⟨a0, a1, a2, b0, b1, b2, o0, o3, -, -⟩ := block_indices t
  funext j
  refine (outer_at (iblk1 V c 0 t) (iblk1 V c 1 t) j).trans ?_
  have h0 : ((cfg1.win 0).blk t).view.emb (ix3 0 (j 1) (j 3))
      = ix3 0 ((((cfg1.win 2).blk t).view.emb j) 1) ((((cfg1.win 2).blk t).view.emb j) 3) := by
    funext a; apply Fin.ext
    match a with
    | ⟨0, _⟩ => show win1_0.index t (0 : Fin 3) * 1 + 1 * 0 = 0; omega
    | ⟨1, _⟩ => show win1_0.index t (1 : Fin 3) * 128 + 1 * (j 1).val = win1_2.index t (1 : Fin 4) * 128 + 1 * (j 1).val; omega
    | ⟨2, _⟩ => show win1_0.index t (2 : Fin 3) * 128 + 1 * (j 3).val = win1_2.index t (3 : Fin 4) * 128 + 1 * (j 3).val; omega
  have h1 : ((cfg1.win 1).blk t).view.emb (ix3 0 (j 2) (j 3))
      = ix3 0 ((((cfg1.win 2).blk t).view.emb j) 2) ((((cfg1.win 2).blk t).view.emb j) 3) := by
    funext a; apply Fin.ext
    match a with
    | ⟨0, _⟩ => show win1_1.index t (0 : Fin 3) * 1 + 1 * 0 = 0; omega
    | ⟨1, _⟩ => show win1_1.index t (1 : Fin 3) * 128 + 1 * (j 2).val = win1_2.index t (2 : Fin 4) * 128 + 1 * (j 2).val; omega
    | ⟨2, _⟩ => show win1_1.index t (2 : Fin 3) * 128 + 1 * (j 3).val = win1_2.index t (3 : Fin 4) * 128 + 1 * (j 3).val; omega
  exact add_congr_idx (V c main_v0_0) (V c main_v0_1) h0 h1

/-! ## The array after the run -/

/-- THE OUTPUT ARRAY after the second region's run, for any contents at its entry: the outer sum of the two input
    arrays, since every grid point writes back its block of that one array and the blocks cover it. -/
theorem outer_final (c : Dev nD) :
    (dat1 (F := Ideal) V c).arrAt 2 cfg1.N = Cert.PairSpec.outerSum (V c main_v0_0) (V c main_v0_1) :=
  (dat1 (F := Ideal) V c).arrAt_eq_of_cover 2 _ (fun t _ => flushed_eq_outerSum V c t) covered

end Array

end Cert.KernelIdeal.PairArray

end
-- ==== Proof.KernelValue.lean ====
/-
  What the idealised kernel computes, as one function of its ten arguments.

  The first region turns the launch memory's arguments into the two projected arrays; the second region reads those two
  arrays where the first left them and writes their outer sum. Nothing else touches the result, so the result array at
  the end of the run is the outer sum of the two projected arrays of the arguments as launched.
-/
import proofs.«168083_j89464168775793_2_alg».proof.Proof.KernelRun
import proofs.«168083_j89464168775793_2_alg».proof.Proof.DenseArray
import proofs.«168083_j89464168775793_2_alg».proof.Proof.OuterArray

noncomputable section

namespace Cert.KernelIdeal.PairValue

open Cert.KernelIdeal Cert.KernelIdeal.Gen Cert.KernelIdeal.PairArray Cert.PairSpec
open Idealize.ShloMosaic Idealize.ShloMosaic.TcCoe Idealize.SL.Sem

variable (m : (ℓ : Loc nD τ sig) → Buf (Elt Ideal) ℓ) (ρ : Dev nD → PrngReg)

/-- The first projected array, as the second region finds it. -/
theorem entryA (c : Dev nD) : V1 m ρ c main_v0_0 = (arrA (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))) :=
  (W1_arr m ρ c 10).trans (denseLo_final (V0 m ρ) c)

/-- The second projected array, as the second region finds it. -/
theorem entryB (c : Dev nD) : V1 m ρ c main_v0_1 = (arrB (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) :=
  (W1_arr m ρ c 11).trans (denseHi_final (V0 m ρ) c)

/-- The result array after both regions. -/
theorem result_eq (c : Dev nD) :
    W2 m ρ c (Proc.devRef .tc main_v1) = outerSum (arrA (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))) (arrB (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W2_arr m ρ c 2).trans ?_
  rw [outer_final (V1 m ρ) c, entryA m ρ c, entryB m ρ c]

/-- THE KERNEL'S RUN: every weakly fair execution terminates without a fault, the result array ends at the outer sum of
    the two projected arrays of the arguments, and the arguments end as launched. -/
theorem run : θ_run defs (onTc (τ := τ) (main (F := Ideal))) ⟨m, fun _ => 0, ρ⟩ (fun r => ∀ c : Dev nD,
      r.2.mem ((c.tc : Thread nD τ).loc main_v1) = outerSum (arrA (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))) (arrB (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v1 (by decide))).trans (result_eq m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c),
     (h c _ (mem_uc main_arg6 (by decide))).trans (W2_main_arg6 m ρ c),
     (h c _ (mem_uc main_arg7 (by decide))).trans (W2_main_arg7 m ρ c),
     (h c _ (mem_uc main_arg8 (by decide))).trans (W2_main_arg8 m ρ c),
     (h c _ (mem_uc main_arg9 (by decide))).trans (W2_main_arg9 m ρ c)⟩)
    (Cert.KernelIdeal.PairRun.run_ends m ρ)

end Cert.KernelIdeal.PairValue

end
-- ==== Proof.RefValue.lean ====
/-
  The reference program's result, read at the extended reals, is the joined contraction of the specification.

  The program computes, for each of the two feature arrays, a dense layer (a contraction over 384 features plus a
  bias) followed by a layer normalisation along the 128 channels: the row mean, the mean of the squared deviations,
  the reciprocal root of that variance plus epsilon, then gain and offset. The two normalised arrays are broadcast
  along the other's row axis and joined on the channel axis, so that entry (n, m, ·) is row n of the first followed
  by row m of the second; the joined array is divided by 2^18, contracted over its 256 channels with the output
  weights, and the output bias is added. Each stage below reads one operation of the program at explicit coordinates
  and identifies it with the matching piece of the specification.
-/
import proofs.«168083_j89464168775793_2_alg».proof.Proof.Gen.ReferenceIdeal.Read
import proofs.«168083_j89464168775793_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.StableHlo
open Cert.PairSpec

/-! ## First branch: the dense layer -/

/-- The left operand's index of the contraction: row n, feature k. -/
theorem lidx_v0 (n : Fin 512) (h : Fin 128) (k : Fin 384) : lidx_main_v0 (ix3 0 n h) k = ix3 0 n k :=
  funext fun a => Fin.ext (by match a with | ⟨0, _⟩ => rfl | ⟨1, _⟩ => rfl | ⟨2, _⟩ => rfl)

/-- The right operand's index of the contraction: channel h, feature k. -/
theorem ridx_v0 (n : Fin 512) (h : Fin 128) (k : Fin 384) : ridx_main_v0 (ix3 0 n h) k = ix2 h k :=
  funext fun a => Fin.ext (by match a with | ⟨0, _⟩ => rfl | ⟨1, _⟩ => rfl)

/-- The bias is broadcast along the rows: its index is the channel. -/
theorem idx_v1v2 (n : Fin 512) (h : Fin 128) : idx_main_v1 (idx_main_v2 (ix3 0 n h)) = ix1 h :=
  funext fun a => Fin.ext (by match a with | ⟨0, _⟩ => rfl)

/-- The dense layer at (n, h) is the specification's projection. -/
theorem v3_at (x0 : (⟨S1x512x384, .f32⟩ : BufTy).Contents (Elt Ideal)) (x2 : (⟨S128x384, .f32⟩ : BufTy).Contents (Elt Ideal))
    (x3 : (⟨S128, .f32⟩ : BufTy).Contents (Elt Ideal)) (n : Fin 512) (h : Fin 128) :
    val_main_v3 (F := Ideal) x0 x2 x3 (ix3 0 n h) = pre x0 x2 x3 n h := by
  rw [val_main_v3_apply, val_main_v0_apply, val_main_v2_apply, val_main_v1_apply, idx_v1v2]
  simp only [lidx_v0, ridx_v0, Ideal.addf_def]
  rfl

/-! ## First branch: the row mean and variance -/

/-- The row sum's operand index: row n, channel k. -/
theorem idx_v4v5 (n : Fin 512) (k : Fin 128) : idx_main_v4 (idx_main_v5 (ix3 0 n 0)) k = ix3 0 n k :=
  funext fun a => Fin.ext (by match a with | ⟨0, _⟩ => rfl | ⟨1, _⟩ => rfl | ⟨2, _⟩ => rfl)

/-- The column of row means at row n is the mean of the projected row. -/
theorem v7_at (x0 : (⟨S1x512x384, .f32⟩ : BufTy).Contents (Elt Ideal)) (x2 : (⟨S128x384, .f32⟩ : BufTy).Contents (Elt Ideal))
    (x3 : (⟨S128, .f32⟩ : BufTy).Contents (Elt Ideal)) (n : Fin 512) :
    val_main_v7 (F := Ideal) x0 x2 x3 (ix3 0 n 0) = mean (pre x0 x2 x3 n) := by
  rw [val_main_v7_apply, val_main_v5_apply, val_main_v4_apply, val_main_v6_apply, val_main_cst_0_apply, val_main_cst_apply]
  simp only [idx_v4v5, v3_at, Ideal.hostDivf_def, Ideal.ofBits_def, Cert.PairConsts.ofBits_zero, zero_add]
  rfl

/-- The mean column is broadcast along the channels (both broadcasts of it). -/
theorem idx_v8 (n : Fin 512) (h : Fin 128) : idx_main_v8 (ix3 0 n h) = ix3 0 n 0 :=
  funext fun a => Fin.ext (by match a with | ⟨0, _⟩ => rfl | ⟨1, _⟩ => rfl | ⟨2, _⟩ => rfl)
theorem idx_v15 (n : Fin 512) (h : Fin 128) : idx_main_v15 (ix3 0 n h) = ix3 0 n 0 :=
  funext fun a => Fin.ext (by match a with | ⟨0, _⟩ => rfl | ⟨1, _⟩ => rfl | ⟨2, _⟩ => rfl)

/-- The squared deviation at (n, k). -/
theorem v10_at (x0 : (⟨S1x512x384, .f32⟩ : BufTy).Contents (Elt Ideal)) (x2 : (⟨S128x384, .f32⟩ : BufTy).Contents (Elt Ideal))
    (x3 : (⟨S128, .f32⟩ : BufTy).Contents (Elt Ideal)) (n : Fin 512) (k : Fin 128) :
    val_main_v10 (F := Ideal) x0 x2 x3 (ix3 0 n k)
      = (pre x0 x2 x3 n k - mean (pre x0 x2 x3 n)) * (pre x0 x2 x3 n k - mean (pre x0 x2 x3 n)) := by
  rw [val_main_v10_apply, val_main_v9_apply, val_main_v8_apply, idx_v8, v7_at, v3_at]
  rfl

/-- The sum of squared deviations' operand index: row n, channel k. -/
theorem idx_v11v12 (n : Fin 512) (k : Fin 128) : idx_main_v11 (idx_main_v12 (ix3 0 n 0)) k = ix3 0 n k :=
  funext fun a => Fin.ext (by match a with | ⟨0, _⟩ => rfl | ⟨1, _⟩ => rfl | ⟨2, _⟩ => rfl)

/-- The column of row variances at row n is the variance of the projected row. -/
theorem v14_at (x0 : (⟨S1x512x384, .f32⟩ : BufTy).Contents (Elt Ideal)) (x2 : (⟨S128x384, .f32⟩ : BufTy).Contents (Elt Ideal))
    (x3 : (⟨S128, .f32⟩ : BufTy).Contents (Elt Ideal)) (n : Fin 512) :
    val_main_v14 (F := Ideal) x0 x2 x3 (ix3 0 n 0) = var (pre x0 x2 x3 n) := by
  rw [val_main_v14_apply, val_main_v12_apply, val_main_v11_apply, val_main_v13_apply, val_main_cst_2_apply, val_main_cst_1_apply]
  simp only [idx_v11v12, v10_at, Ideal.hostDivf_def, Ideal.ofBits_def, Cert.PairConsts.ofBits_zero, zero_add]
  rfl

/-! ## First branch: the normalised row -/

/-- The reciprocal-root column is broadcast along the channels. -/
theorem idx_v20 (n : Fin 512) (h : Fin 128) : idx_main_v20 (ix3 0 n h) = ix3 0 n 0 :=
  funext fun a => Fin.ext (by match a with | ⟨0, _⟩ => rfl | ⟨1, _⟩ => rfl | ⟨2, _⟩ => rfl)

/-- Gain and offset are broadcast along the rows: their index is the channel. -/
theorem idx_v22v23 (n : Fin 512) (h : Fin 128) : idx_main_v22 (idx_main_v23 (ix3 0 n h)) = ix1 h :=
  funext fun a => Fin.ext (by match a with | ⟨0, _⟩ => rfl)
theorem idx_v25v26 (n : Fin 512) (h : Fin 128) : idx_main_v25 (idx_main_v26 (ix3 0 n h)) = ix1 h :=
  funext fun a => Fin.ext (by match a with | ⟨0, _⟩ => rfl)

/-- The reciprocal root of variance plus epsilon, at row n. -/
theorem v19_at (x0 : (⟨S1x512x384, .f32⟩ : BufTy).Contents (Elt Ideal)) (x2 : (⟨S128x384, .f32⟩ : BufTy).Contents (Elt Ideal))
    (x3 : (⟨S128, .f32⟩ : BufTy).Contents (Elt Ideal)) (n : Fin 512) :
    val_main_v19 (F := Ideal) x0 x2 x3 (ix3 0 n 0)
      = Ideal.rsqrt (var (pre x0 x2 x3 n) + Ideal.ofBits .f32 0x3727C5AC#32) := by
  rw [val_main_v19_apply, val_main_v18_apply, val_main_v17_apply, val_main_cst_3_apply, v14_at]
  rfl

/-- The normalised, scaled and shifted entry (n, h) is the specification's. -/
theorem v27_at (x0 : (⟨S1x512x384, .f32⟩ : BufTy).Contents (Elt Ideal)) (x2 : (⟨S128x384, .f32⟩ : BufTy).Contents (Elt Ideal))
    (x3 x6 x7 : (⟨S128, .f32⟩ : BufTy).Contents (Elt Ideal)) (n : Fin 512) (h : Fin 128) :
    val_main_v27 (F := Ideal) x0 x2 x3 x6 x7 (ix3 0 n h) = act x0 x2 x3 x6 x7 n h := by
  rw [val_main_v27_apply, val_main_v24_apply, val_main_v21_apply, val_main_v16_apply, val_main_v15_apply, val_main_v20_apply,
    val_main_v23_apply, val_main_v22_apply, val_main_v26_apply, val_main_v25_apply,
    idx_v15, idx_v20, idx_v22v23, idx_v25v26, v3_at, v7_at, v19_at]
  rfl

/-! ## Second branch: the dense layer -/

/-- The left operand's index of the contraction: row n, feature k. -/
theorem lidx_v28 (n : Fin 512) (h : Fin 128) (k : Fin 384) : lidx_main_v28 (ix3 0 n h) k = ix3 0 n k :=
  funext fun a => Fin.ext (by match a with | ⟨0, _⟩ => rfl | ⟨1, _⟩ => rfl | ⟨2, _⟩ => rfl)

/-- The right operand's index of the contraction: channel h, feature k. -/
theorem ridx_v28 (n : Fin 512) (h : Fin 128) (k : Fin 384) : ridx_main_v28 (ix3 0 n h) k = ix2 h k :=
  funext fun a => Fin.ext (by match a with | ⟨0, _⟩ => rfl | ⟨1, _⟩ => rfl)

/-- The bias is broadcast along the rows: its index is the channel. -/
theorem idx_v29v30 (n : Fin 512) (h : Fin 128) : idx_main_v29 (idx_main_v30 (ix3 0 n h)) = ix1 h :=
  funext fun a => Fin.ext (by match a with | ⟨0, _⟩ => rfl)

/-- The dense layer at (n, h) is the specification's projection. -/
theorem v31_at (x1 : (⟨S1x512x384, .f32⟩ : BufTy).Contents (Elt Ideal)) (x4 : (⟨S128x384, .f32⟩ : BufTy).Contents (Elt Ideal))
    (x5 : (⟨S128, .f32⟩ : BufTy).Contents (Elt Ideal)) (n : Fin 512) (h : Fin 128) :
    val_main_v31 (F := Ideal) x1 x4 x5 (ix3 0 n h) = pre x1 x4 x5 n h := by
  rw [val_main_v31_apply, val_main_v28_apply, val_main_v30_apply, val_main_v29_apply, idx_v29v30]
  simp only [lidx_v28, ridx_v28, Ideal.addf_def]
  rfl

/-! ## Second branch: the row mean and variance -/

/-- The row sum's operand index: row n, channel k. -/
theorem idx_v32v33 (n : Fin 512) (k : Fin 128) : idx_main_v32 (idx_main_v33 (ix3 0 n 0)) k = ix3 0 n k :=
  funext fun a => Fin.ext (by match a with | ⟨0, _⟩ => rfl | ⟨1, _⟩ => rfl | ⟨2, _⟩ => rfl)

/-- The column of row means at row n is the mean of the projected row. -/
theorem v35_at (x1 : (⟨S1x512x384, .f32⟩ : BufTy).Contents (Elt Ideal)) (x4 : (⟨S128x384, .f32⟩ : BufTy).Contents (Elt Ideal))
    (x5 : (⟨S128, .f32⟩ : BufTy).Contents (Elt Ideal)) (n : Fin 512) :
    val_main_v35 (F := Ideal) x1 x4 x5 (ix3 0 n 0) = mean (pre x1 x4 x5 n) := by
  rw [val_main_v35_apply, val_main_v33_apply, val_main_v32_apply, val_main_v34_apply, val_main_cst_5_apply, val_main_cst_4_apply]
  simp only [idx_v32v33, v31_at, Ideal.hostDivf_def, Ideal.ofBits_def, Cert.PairConsts.ofBits_zero, zero_add]
  rfl

/-- The mean column is broadcast along the channels (both broadcasts of it). -/
theorem idx_v36 (n : Fin 512) (h : Fin 128) : idx_main_v36 (ix3 0 n h) = ix3 0 n 0 :=
  funext fun a => Fin.ext (by match a with | ⟨0, _⟩ => rfl | ⟨1, _⟩ => rfl | ⟨2, _⟩ => rfl)
theorem idx_v43 (n : Fin 512) (h : Fin 128) : idx_main_v43 (ix3 0 n h) = ix3 0 n 0 :=
  funext fun a => Fin.ext (by match a with | ⟨0, _⟩ => rfl | ⟨1, _⟩ => rfl | ⟨2, _⟩ => rfl)

/-- The squared deviation at (n, k). -/
theorem v38_at (x1 : (⟨S1x512x384, .f32⟩ : BufTy).Contents (Elt Ideal)) (x4 : (⟨S128x384, .f32⟩ : BufTy).Contents (Elt Ideal))
    (x5 : (⟨S128, .f32⟩ : BufTy).Contents (Elt Ideal)) (n : Fin 512) (k : Fin 128) :
    val_main_v38 (F := Ideal) x1 x4 x5 (ix3 0 n k)
      = (pre x1 x4 x5 n k - mean (pre x1 x4 x5 n)) * (pre x1 x4 x5 n k - mean (pre x1 x4 x5 n)) := by
  rw [val_main_v38_apply, val_main_v37_apply, val_main_v36_apply, idx_v36, v35_at, v31_at]
  rfl

/-- The sum of squared deviations' operand index: row n, channel k. -/
theorem idx_v39v40 (n : Fin 512) (k : Fin 128) : idx_main_v39 (idx_main_v40 (ix3 0 n 0)) k = ix3 0 n k :=
  funext fun a => Fin.ext (by match a with | ⟨0, _⟩ => rfl | ⟨1, _⟩ => rfl | ⟨2, _⟩ => rfl)

/-- The column of row variances at row n is the variance of the projected row. -/
theorem v42_at (x1 : (⟨S1x512x384, .f32⟩ : BufTy).Contents (Elt Ideal)) (x4 : (⟨S128x384, .f32⟩ : BufTy).Contents (Elt Ideal))
    (x5 : (⟨S128, .f32⟩ : BufTy).Contents (Elt Ideal)) (n : Fin 512) :
    val_main_v42 (F := Ideal) x1 x4 x5 (ix3 0 n 0) = var (pre x1 x4 x5 n) := by
  rw [val_main_v42_apply, val_main_v40_apply, val_main_v39_apply, val_main_v41_apply, val_main_cst_7_apply, val_main_cst_6_apply]
  simp only [idx_v39v40, v38_at, Ideal.hostDivf_def, Ideal.ofBits_def, Cert.PairConsts.ofBits_zero, zero_add]
  rfl

/-! ## Second branch: the normalised row -/

/-- The reciprocal-root column is broadcast along the channels. -/
theorem idx_v48 (n : Fin 512) (h : Fin 128) : idx_main_v48 (ix3 0 n h) = ix3 0 n 0 :=
  funext fun a => Fin.ext (by match a with | ⟨0, _⟩ => rfl | ⟨1, _⟩ => rfl | ⟨2, _⟩ => rfl)

/-- Gain and offset are broadcast along the rows: their index is the channel. -/
theorem idx_v50v51 (n : Fin 512) (h : Fin 128) : idx_main_v50 (idx_main_v51 (ix3 0 n h)) = ix1 h :=
  funext fun a => Fin.ext (by match a with | ⟨0, _⟩ => rfl)
theorem idx_v53v54 (n : Fin 512) (h : Fin 128) : idx_main_v53 (idx_main_v54 (ix3 0 n h)) = ix1 h :=
  funext fun a => Fin.ext (by match a with | ⟨0, _⟩ => rfl)

/-- The reciprocal root of variance plus epsilon, at row n. -/
theorem v47_at (x1 : (⟨S1x512x384, .f32⟩ : BufTy).Contents (Elt Ideal)) (x4 : (⟨S128x384, .f32⟩ : BufTy).Contents (Elt Ideal))
    (x5 : (⟨S128, .f32⟩ : BufTy).Contents (Elt Ideal)) (n : Fin 512) :
    val_main_v47 (F := Ideal) x1 x4 x5 (ix3 0 n 0)
      = Ideal.rsqrt (var (pre x1 x4 x5 n) + Ideal.ofBits .f32 0x3727C5AC#32) := by
  rw [val_main_v47_apply, val_main_v46_apply, val_main_v45_apply, val_main_cst_8_apply, v42_at]
  rfl

/-- The normalised, scaled and shifted entry (n, h) is the specification's. -/
theorem v55_at (x1 : (⟨S1x512x384, .f32⟩ : BufTy).Contents (Elt Ideal)) (x4 : (⟨S128x384, .f32⟩ : BufTy).Contents (Elt Ideal))
    (x5 x6 x7 : (⟨S128, .f32⟩ : BufTy).Contents (Elt Ideal)) (n : Fin 512) (h : Fin 128) :
    val_main_v55 (F := Ideal) x1 x4 x5 x6 x7 (ix3 0 n h) = act x1 x4 x5 x6 x7 n h := by
  rw [val_main_v55_apply, val_main_v52_apply, val_main_v49_apply, val_main_v44_apply, val_main_v43_apply, val_main_v48_apply,
    val_main_v51_apply, val_main_v50_apply, val_main_v54_apply, val_main_v53_apply,
    idx_v43, idx_v48, idx_v50v51, idx_v53v54, v31_at, v35_at, v47_at]
  rfl

/-! ## The two normalised arrays, broadcast and joined on the channel axis -/

/-- The first array is broadcast along the second row axis: entry (n, m, k) reads (n, k). -/
theorem idx_v56v57 (n m : Fin 512) (k : Fin 128) : idx_main_v56 (idx_main_v57 (ix4 0 n m k)) = ix3 0 n k :=
  funext fun a => Fin.ext (by match a with | ⟨0, _⟩ => rfl | ⟨1, _⟩ => rfl | ⟨2, _⟩ => rfl)

/-- The second array is broadcast along the first row axis: entry (n, m, k) reads (m, k). -/
theorem idx_v58v59 (n m : Fin 512) (k : Fin 128) : idx_main_v58 (idx_main_v59 (ix4 0 n m k)) = ix3 0 m k :=
  funext fun a => Fin.ext (by match a with | ⟨0, _⟩ => rfl | ⟨1, _⟩ => rfl | ⟨2, _⟩ => rfl)

theorem v57_at (x0 : (⟨S1x512x384, .f32⟩ : BufTy).Contents (Elt Ideal)) (x2 : (⟨S128x384, .f32⟩ : BufTy).Contents (Elt Ideal))
    (x3 x6 x7 : (⟨S128, .f32⟩ : BufTy).Contents (Elt Ideal)) (n m : Fin 512) (k : Fin 128) :
    val_main_v57 (F := Ideal) x0 x2 x3 x6 x7 (ix4 0 n m k) = act x0 x2 x3 x6 x7 n k := by
  rw [val_main_v57_apply, val_main_v56_apply, idx_v56v57, v27_at]

theorem v59_at (x1 : (⟨S1x512x384, .f32⟩ : BufTy).Contents (Elt Ideal)) (x4 : (⟨S128x384, .f32⟩ : BufTy).Contents (Elt Ideal))
    (x5 x6 x7 : (⟨S128, .f32⟩ : BufTy).Contents (Elt Ideal)) (n m : Fin 512) (k : Fin 128) :
    val_main_v59 (F := Ideal) x1 x4 x5 x6 x7 (ix4 0 n m k) = act x1 x4 x5 x6 x7 m k := by
  rw [val_main_v59_apply, val_main_v58_apply, idx_v58v59, v55_at]

/-- The joined array at (n, m, k): the first array's row n on the channels below 128, the second's row m above. -/
theorem v60_at (x0 x1 : (⟨S1x512x384, .f32⟩ : BufTy).Contents (Elt Ideal)) (x2 : (⟨S128x384, .f32⟩ : BufTy).Contents (Elt Ideal))
    (x3 : (⟨S128, .f32⟩ : BufTy).Contents (Elt Ideal)) (x4 : (⟨S128x384, .f32⟩ : BufTy).Contents (Elt Ideal))
    (x5 x6 x7 : (⟨S128, .f32⟩ : BufTy).Contents (Elt Ideal)) (n m : Fin 512) (k : Fin 256) :
    val_main_v60 (F := Ideal) x0 x1 x2 x3 x4 x5 x6 x7 (ix4 0 n m k)
      = cat (act x0 x2 x3 x6 x7) (act x1 x4 x5 x6 x7) n m k := by
  unfold val_main_v60 cat
  by_cases hk : k.val < 128
  · rw [dif_pos hk]
    refine (concatenate_pair_apply_left (t := S1x512x512x256) (s₁ := S1x512x512x128) (s₂ := S1x512x512x128) 3 _ _ _
      (ix4 0 n m k) rfl (ix4 0 n m (⟨k.val, hk⟩ : Fin 128)) (fun b => ?_)).trans (v57_at x0 x2 x3 x6 x7 n m ⟨k.val, hk⟩)
    match b with
    | ⟨0, _⟩ => rfl
    | ⟨1, _⟩ => rfl
    | ⟨2, _⟩ => rfl
    | ⟨3, _⟩ => rfl
  · rw [dif_neg hk]
    have hk' : k.val - 128 < 128 := by omega
    refine (concatenate_pair_apply_right (t := S1x512x512x256) (s₁ := S1x512x512x128) (s₂ := S1x512x512x128) 3 _ _ _
      (ix4 0 n m k) rfl rfl (ix4 0 n m (⟨k.val - 128, hk'⟩ : Fin 128)) (fun b hb => ?_) ?_).trans
      (v59_at x1 x4 x5 x6 x7 n m ⟨k.val - 128, hk'⟩)
    · match b, hb with
      | ⟨0, _⟩, _ => rfl
      | ⟨1, _⟩, _ => rfl
      | ⟨2, _⟩, _ => rfl
      | ⟨3, _⟩, hb => exact absurd rfl hb
    · show (k.val - 128) + 128 = k.val
      omega

/-! ## The division by 2^18, the contraction with the output weights, and the output bias -/

/-- The left operand's index of the last contraction: (n, m), joined channel k. -/
theorem lidx_v63 (n m : Fin 512) (z : Fin 128) (k : Fin 256) : lidx_main_v63 (ix4 0 n m z) k = ix4 0 n m k :=
  funext fun a => Fin.ext (by match a with | ⟨0, _⟩ => rfl | ⟨1, _⟩ => rfl | ⟨2, _⟩ => rfl | ⟨3, _⟩ => rfl)

/-- The right operand's index of the last contraction: output channel z, joined channel k. -/
theorem ridx_v63 (n m : Fin 512) (z : Fin 128) (k : Fin 256) : ridx_main_v63 (ix4 0 n m z) k = ix2 z k :=
  funext fun a => Fin.ext (by match a with | ⟨0, _⟩ => rfl | ⟨1, _⟩ => rfl)

/-- The output bias is broadcast along both row axes: its index is the output channel. -/
theorem idx_v64v65 (n m : Fin 512) (z : Fin 128) : idx_main_v64 (idx_main_v65 (ix4 0 n m z)) = ix1 z :=
  funext fun a => Fin.ext (by match a with | ⟨0, _⟩ => rfl)

/-- The joined array divided by 2^18, at (n, m, k). -/
theorem v62_at (x0 x1 : (⟨S1x512x384, .f32⟩ : BufTy).Contents (Elt Ideal)) (x2 : (⟨S128x384, .f32⟩ : BufTy).Contents (Elt Ideal))
    (x3 : (⟨S128, .f32⟩ : BufTy).Contents (Elt Ideal)) (x4 : (⟨S128x384, .f32⟩ : BufTy).Contents (Elt Ideal))
    (x5 x6 x7 : (⟨S128, .f32⟩ : BufTy).Contents (Elt Ideal)) (n m : Fin 512) (k : Fin 256) :
    val_main_v62 (F := Ideal) x0 x1 x2 x3 x4 x5 x6 x7 (ix4 0 n m k)
      = Ideal.div (cat (act x0 x2 x3 x6 x7) (act x1 x4 x5 x6 x7) n m k) (Ideal.ofBits .f32 0x48800000#32) := by
  rw [val_main_v62_apply, val_main_v61_apply, val_main_cst_9_apply, v60_at]
  rfl

/-- The result at (n, m, z) is the specification's joined contraction. -/
theorem v66_at (x0 x1 : (⟨S1x512x384, .f32⟩ : BufTy).Contents (Elt Ideal)) (x2 : (⟨S128x384, .f32⟩ : BufTy).Contents (Elt Ideal))
    (x3 : (⟨S128, .f32⟩ : BufTy).Contents (Elt Ideal)) (x4 : (⟨S128x384, .f32⟩ : BufTy).Contents (Elt Ideal))
    (x5 x6 x7 : (⟨S128, .f32⟩ : BufTy).Contents (Elt Ideal)) (x8 : (⟨S128x256, .f32⟩ : BufTy).Contents (Elt Ideal)) (x9 : (⟨S128, .f32⟩ : BufTy).Contents (Elt Ideal)) (n m : Fin 512) (z : Fin 128) :
    val_main_v66 (F := Ideal) x0 x1 x2 x3 x4 x5 x6 x7 x8 x9 (ix4 0 n m z)
      = outJoined (act x0 x2 x3 x6 x7) (act x1 x4 x5 x6 x7) x8 x9 n m z := by
  rw [val_main_v66_apply, val_main_v63_apply, val_main_v65_apply, val_main_v64_apply, idx_v64v65]
  simp only [lidx_v63, ridx_v63, v62_at, Ideal.addf_def]
  rfl

/-- THE REFERENCE'S RESULT is the specification's joined array. -/
theorem ref_eq (x0 x1 : (⟨S1x512x384, .f32⟩ : BufTy).Contents (Elt Ideal)) (x2 : (⟨S128x384, .f32⟩ : BufTy).Contents (Elt Ideal))
    (x3 : (⟨S128, .f32⟩ : BufTy).Contents (Elt Ideal)) (x4 : (⟨S128x384, .f32⟩ : BufTy).Contents (Elt Ideal))
    (x5 x6 x7 : (⟨S128, .f32⟩ : BufTy).Contents (Elt Ideal)) (x8 : (⟨S128x256, .f32⟩ : BufTy).Contents (Elt Ideal)) (x9 : (⟨S128, .f32⟩ : BufTy).Contents (Elt Ideal)) :
    val_main_v66 (F := Ideal) x0 x1 x2 x3 x4 x5 x6 x7 x8 x9 = joined x0 x1 x2 x3 x4 x5 x6 x7 x8 x9 := by
  funext i
  obtain ⟨a, n, m, z, rfl⟩ : ∃ (a : Fin 1) (n m : Fin 512) (z : Fin 128), i = ix4 a n m z := ⟨i 0, i 1, i 2, i 3, eq_ix4 i⟩
  obtain rfl : a = 0 := Subsingleton.elim _ _
  exact v66_at x0 x1 x2 x3 x4 x5 x6 x7 x8 x9 n m z

end Cert.ReferenceIdeal.RefValue

end
-- ==== Proof.LibPreRead.lean ====
/-
  Reading a printed precondition's comparisons back as facts about an extended real.

  A comparison of extended reals is the linear order's: `x ≥ y` answers 1 exactly when `y ≤ x`, `x < y` exactly
  when `x < y`. The pattern `0x7F800000` denotes `+∞` and the zero pattern `0`. So an entry `x` with
  `|x| < +∞` (where `|x| = max x (-x)`) and `x ≥ 0` is a real number `r ≥ 0`: it is not `+∞` by the first fact and not
  `-∞` by the second.
-/
import Idealize.ShloMosaic.PureOps.Ideal

noncomputable section

namespace Cert.Lib.PreRead

open Idealize.ShloMosaic

/-- The pattern of `+inf` denotes `⊤`. -/
theorem ofBits_inf : Ideal.ofBits .f32 0x7F800000#32 = ⊤ := by
  simp [Ideal.ofBits, Ideal.ieee]

/-- The zero pattern denotes `0`. -/
theorem ofBits_zero : Ideal.ofBits .f32 0x00000000#32 = 0 := by
  simp [Ideal.ofBits, Ideal.ieee]

/-- `x ≥ y` answers 1 exactly when `y ≤ x`. -/
theorem cmp_oge_eq_one {x y : EReal} : Ideal.cmp .oge x y = 1#1 ↔ y ≤ x := by
  by_cases h : y ≤ x <;> simp [Ideal.cmp, h]

/-- `x < y` answers 1 exactly when `x < y`. -/
theorem cmp_olt_eq_one {x y : EReal} : Ideal.cmp .olt x y = 1#1 ↔ x < y := by
  by_cases h : x < y <;> simp [Ideal.cmp, h]

/-- An entry with `|x| < +inf`, as the printed comparison, is a real number: `max x (-x) < ⊤` excludes both infinities. -/
theorem real_of_abs_lt_inf {x : EReal}
    (hfin : Ideal.cmp .olt (max x (-x)) (Ideal.ofBits .f32 0x7F800000#32) = 1#1) :
    ∃ r : ℝ, x = (r : EReal) := by
  rw [cmp_olt_eq_one, ofBits_inf] at hfin
  have hx_top : x ≠ ⊤ := fun h => by simp [h] at hfin
  have hx_bot : x ≠ ⊥ := fun h => by simp [h] at hfin
  exact ⟨x.toReal, (EReal.coe_toReal hx_top hx_bot).symm⟩

/-- An entry with `|x| < +inf` and `x ≥ 0`, both as the printed comparisons, is a real `r ≥ 0`. -/
theorem real_nonneg_of_cmp {x : EReal}
    (hfin : Ideal.cmp .olt (max x (-x)) (Ideal.ofBits .f32 0x7F800000#32) = 1#1)
    (hpos : Ideal.cmp .oge x (Ideal.ofBits .f32 0x00000000#32) = 1#1) :
    ∃ r : ℝ, 0 ≤ r ∧ x = (r : EReal) := by
  rw [cmp_olt_eq_one, ofBits_inf] at hfin
  rw [cmp_oge_eq_one, ofBits_zero] at hpos
  have hx_top : x ≠ ⊤ := fun h => by simp [h] at hfin
  have hx_bot : x ≠ ⊥ := fun h => by simp [h] at hpos
  exact ⟨x.toReal, EReal.toReal_nonneg hpos, (EReal.coe_toReal hx_top hx_bot).symm⟩

end Cert.Lib.PreRead

end
-- ==== Proof.Finite.lean ====
/-
  The printed precondition, read back: every entry of each of the ten argument arrays is a real number.

  The precondition is ten copies of "all (|x| < +inf)", one per array, joined by "and". Its value is one word, and the
  hypothesis says that this word is 1. A conjunction of one-bit words is 1 only when both are; an "all" (a fold by "and"
  from 1) is 1 only when every element is 1; and an element of the comparison being 1 says max x (-x) < +inf at that
  index, which excludes both infinities, so the entry x is a real number.
-/
import proofs.«168083_j89464168775793_2_alg».proof.Pre_finite_inputs
import proofs.«168083_j89464168775793_2_alg».proof.Proof.LibPreRead
import proofs.«168083_j89464168775793_2_alg».proof.Proof.LibRealEntries
import Idealize.ShloMosaic.Lib.ReduceAll

noncomputable section

namespace Cert.PairFinite

open Idealize.ShloMosaic Cert.LibRealEntries Cert.Pre_finite_inputs

/-- The shape of rank zero has exactly one index: there is no axis to give a coordinate on. -/
instance : Subsingleton S_.Idx := ⟨fun a b => funext fun d => d.elim0⟩

/-- One copy of "all (|x| < +inf)" that came out 1 makes every entry of the array a real number: the fold by "and"
    met only 1s, and at each index the 1 says that max x (-x) is below +inf. -/
theorem all_real_of_reduce {s z : Shape} {axes : List (Fin s.rank)} [Subsingleton z.Idx] (a : FVec Ideal s .f32)
    (dims : Fin z.rank → Fin s.rank) (hb : z.BroadcastsInDim s dims) (hr : s.ReducesTo axes z) (hu : 0 < z.numel) (j : z.Idx)
    (e : Host.reduce IntOp.andi (cmpf .olt (Host.absf a) (broadcastInDim s dims hb (constant z .f32 0x7F800000#32)))
      (constantI z 1 1#1) hr hu j = 1#1) :
    AllReal a := by
  intro i
  have h := Host.reduce_andi_all _ _ hr hu j e i
  exact Cert.Lib.PreRead.real_of_abs_lt_inf h

/-- The printed precondition at the extended reals gives: all ten argument arrays have real entries. -/
theorem real_of_pre [Cert.Pre_finite_inputs.Facts] (a0 a1 : FVec Ideal S1x512x384 .f32) (a2 : FVec Ideal S128x384 .f32)
    (a3 : FVec Ideal S128 .f32) (a4 : FVec Ideal S128x384 .f32) (a5 a6 a7 : FVec Ideal S128 .f32)
    (a8 : FVec Ideal S128x256 .f32) (a9 : FVec Ideal S128 .f32)
    (h : Cert.Pre_finite_inputs.fn (F := Ideal) a0 a1 a2 a3 a4 a5 a6 a7 a8 a9 = (fun _ => 1#1)) :
    AllReal a0 ∧ AllReal a1 ∧ AllReal a2 ∧ AllReal a3 ∧ AllReal a4 ∧ AllReal a5 ∧ AllReal a6 ∧ AllReal a7 ∧ AllReal a8
      ∧ AllReal a9 := by
  have h0 := congrFun h (fun d => d.elim0)
  dsimp only [fn, fn_part1, fn_part2, andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨all_real_of_reduce a0 _ _ _ _ _ e0, all_real_of_reduce a1 _ _ _ _ _ e1, all_real_of_reduce a2 _ _ _ _ _ e2,
    all_real_of_reduce a3 _ _ _ _ _ e3, all_real_of_reduce a4 _ _ _ _ _ e4, all_real_of_reduce a5 _ _ _ _ _ e5,
    all_real_of_reduce a6 _ _ _ _ _ e6, all_real_of_reduce a7 _ _ _ _ _ e7, all_real_of_reduce a8 _ _ _ _ _ e8,
    all_real_of_reduce a9 _ _ _ _ _ e9⟩

end Cert.PairFinite

end
-- ==== Proof.lean ====
/-
  The kernel against its reference: a pairwise projection.

  Both programs project two feature arrays to 128 channels, layer-normalise the rows, and return, for every pair of
  rows (n, m), a linear image of the joined 256 channels scaled by 2^-18 plus a bias. The reference joins the rows,
  divides by 2^18 and contracts with Wout in one product over 256 channels. The kernel splits the product in its two
  halves of 128, computes each half once per row in a first region (scaling by the float 2^-18 and adding the bias to
  the first half there), and in a second region adds the two halves for every pair of rows.

  On the extended reals the two agree whenever the arguments are real numbers, which the precondition says: the
  normalised rows are then real (a variance plus a positive epsilon is positive), so the scale factor may cross each
  half-sum, the sum over 256 is the sum of its halves, and dividing by 2^18 is multiplying by 2^-18.

  The frames are the generated ones; the idealised kernel's value is read off its two regions' write-backs, the
  reference's off its generated run.
-/
import proofs.«168083_j89464168775793_2_alg».proof.Defs
import proofs.«168083_j89464168775793_2_alg».proof.Proof.Gen.Kernel
import proofs.«168083_j89464168775793_2_alg».proof.Proof.Gen.Kernel.Skeleton
import proofs.«168083_j89464168775793_2_alg».proof.Proof.Gen.Kernel.Launch
import proofs.«168083_j89464168775793_2_alg».proof.Proof.Gen.Kernel.Points
import proofs.«168083_j89464168775793_2_alg».proof.Proof.Gen.Kernel.Frame
import proofs.«168083_j89464168775793_2_alg».proof.Proof.Gen.KernelIdeal
import proofs.«168083_j89464168775793_2_alg».proof.Proof.Gen.KernelIdeal.Skeleton
import proofs.«168083_j89464168775793_2_alg».proof.Proof.Gen.KernelIdeal.Launch
import proofs.«168083_j89464168775793_2_alg».proof.Proof.Gen.KernelIdeal.Points
import proofs.«168083_j89464168775793_2_alg».proof.Proof.Gen.KernelIdeal.Frame
import proofs.«168083_j89464168775793_2_alg».proof.Proof.Gen.ReferenceIdeal
import proofs.«168083_j89464168775793_2_alg».proof.Proof.Gen.ReferenceIdeal.Run
import proofs.«168083_j89464168775793_2_alg».proof.Proof.Gen.ReferenceIdeal.Read
import proofs.«168083_j89464168775793_2_alg».proof.Proof.Gen.Pre_finite_inputs
import proofs.«168083_j89464168775793_2_alg».proof.Proof.KernelValue
import proofs.«168083_j89464168775793_2_alg».proof.Proof.RefValue
import proofs.«168083_j89464168775793_2_alg».proof.Proof.Finite
import proofs.«168083_j89464168775793_2_alg».proof.Proof.Spec
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel ends at the outer sum of its two projected arrays, the reference at the joined contraction, of
    arguments that agree and are real: one array, by the law of the specification. -/
theorem algebraic : Cert.algebraic_KernelIdeal_ReferenceIdeal := by
  intro m ρ m' ρ' hpre hagree
  refine ⟨fun c => Cert.PairSpec.outerSum (Cert.PairSpec.arrA (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.PairSpec.arrB (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), Cert.KernelIdeal.PairValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  obtain ⟨r0, r1, r2, r3, r4, r5, r6, r7, r8, -⟩ := Cert.PairFinite.real_of_pre _ _ _ _ _ _ _ _ _ _ (hpre c)
  rw [Cert.ReferenceIdeal.Read.val_main_v66_eq, Cert.ReferenceIdeal.RefValue.ref_eq, a0, a1, a2, a3, a4, a5, a6, a7, a8, a9]
  exact (Cert.PairSpec.outerSum_eq_joined _ _ _ _ _ _ _ _ _ _ r0 r1 r2 r3 r4 r5 r6 r7 r8).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
